-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_2bw2" .f32 0x40480000#32 ((16777216 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128 : Shape := ⟨1, ![128]⟩
abbrev S50000x512 : Shape := ⟨2, ![50000, 512]⟩
abbrev S4096 : Shape := ⟨1, ![4096]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S128 : S_.BroadcastsInDim S128 (![] : Fin 0 → Fin S128.rank)
  reducesTo_S128_S_d0 : S128.ReducesTo [0] S_
  bcast_S_S50000x512 : S_.BroadcastsInDim S50000x512 (![] : Fin 0 → Fin S50000x512.rank)
  reducesTo_S50000x512_S_d0_1 : S50000x512.ReducesTo [0, 1] S_

variable [Facts]

def fn_part1 {F : FTy → Type} [FloatOps F] (main_v13 : IVec S_ 1) (main_v16 : IVec S50000x512 1) : IVec S_ 1 :=
  let main_c_5 : IVec S_ 1 := constantI S_ 1 1#1
  let main_v17 : IVec S_ 1 := (fun x v => Host.reduce IntOp.andi x v reducesTo_S50000x512_S_d0_1 h_S_) main_v16 main_c_5
  let main_v18 : IVec S_ 1 := andi main_v13 main_v17
  main_v18

def fn {F : FTy → Type} [FloatOps F] (main_arg0 : FVec F S128x512 .f32) (main_arg1 : FVec F S128 .f32) (main_arg2 : FVec F S50000x512 .f32) (main_arg3 : FVec F S50000x512 .f32) (main_arg4 : IVec S4096 32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S50000x512 .f32 := Host.absf main_arg2
  let main_cst_2 : FVec F S_ .f32 := constant S_ .f32 0x7F800000#32
  let main_v10 : FVec F S50000x512 .f32 := broadcastInDim S50000x512 ![] bcast_S_S50000x512 main_cst_2
  let main_v11 : IVec S50000x512 1 := cmpf .olt main_v9 main_v10
  let main_c_3 : IVec S_ 1 := constantI S_ 1 1#1
  let main_v12 : IVec S_ 1 := (fun x v => Host.reduce IntOp.andi x v reducesTo_S50000x512_S_d0_1 h_S_) main_v11 main_c_3
  let main_v13 : IVec S_ 1 := andi main_v8 main_v12
  let main_v14 : FVec F S50000x512 .f32 := Host.absf main_arg3
  let main_cst_4 : FVec F S_ .f32 := constant S_ .f32 0x7F800000#32
  let main_v15 : FVec F S50000x512 .f32 := broadcastInDim S50000x512 ![] bcast_S_S50000x512 main_cst_4
  let main_v16 : IVec S50000x512 1 := cmpf .olt main_v14 main_v15
  fn_part1 (F := F) main_v13 main_v16
-- ==== Kernel.lean ====
abbrev S128x512 : Shape := ⟨2, ![128, 512]⟩
abbrev S128 : Shape := ⟨1, ![128]⟩
abbrev S50000x512 : Shape := ⟨2, ![50000, 512]⟩
abbrev S4096 : Shape := ⟨1, ![4096]⟩
abbrev S_ : Shape := ⟨0, ![]⟩
abbrev S4096x1 : Shape := ⟨2, ![4096, 1]⟩
abbrev S4096x512 : Shape := ⟨2, ![4096, 512]⟩
abbrev S128x1 : Shape := ⟨2, ![128, 1]⟩
abbrev S64x512 : Shape := ⟨2, ![64, 512]⟩
abbrev S64x1 : Shape := ⟨2, ![64, 1]⟩
abbrev S1024x512 : Shape := ⟨2, ![1024, 512]⟩
abbrev S64x1024 : Shape := ⟨2, ![64, 1024]⟩
abbrev S1x512 : Shape := ⟨2, ![1, 512]⟩
abbrev S1x1024 : Shape := ⟨2, ![1, 1024]⟩
abbrev S64 : Shape := ⟨1, ![64]⟩

abbrev nBuf : Space → Nat
  | .hbm => 33
  | .vmem => 17
  | .smem => 0
  | _ => 0

abbrev bufTy : (tb : Table) → Fin (tcTables nBuf tb) → BufTy
  | .hbm, ⟨0, _⟩ => ⟨S128x512, .f32⟩
  | .hbm, ⟨1, _⟩ => ⟨S128, .f32⟩
  | .hbm, ⟨2, _⟩ => ⟨S50000x512, .f32⟩
  | .hbm, ⟨3, _⟩ => ⟨S50000x512, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x512, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x512, .f32⟩
  | .hbm, ⟨23, _⟩ => ⟨S128x1, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128x1, .f32⟩
  | .hbm, ⟨28, _⟩ => ⟨S128x512, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S128x512, .f32⟩
  | .local _ .vmem, ⟨0, _⟩ => ⟨S64x512, .f32⟩
  | .local _ .vmem, ⟨1, _⟩ => ⟨S64x512, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S64x512, .f32⟩
  | .local _ .vmem, ⟨13, _⟩ => ⟨S64x512, .f32⟩
  | .local _ .vmem, ⟨14, _⟩ => ⟨S64x1, .f32⟩
  | .local _ .vmem, ⟨15, _⟩ => ⟨S64x1, .f32⟩
  | .local _ .vmem, ⟨16, _⟩ => ⟨S64x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v85 : BitVec 1 := Scalar.cmpi .eq arg1 c3_i32
  let v86 : BitVec 32 := Scalar.extui v85
  let c0_i32_38 : BitVec 32 := 0#32
  let v87 : BitVec 1 := Scalar.cmpi .ne v86 c0_i32_38
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S128_S128x1 : S128.ShapeCasts S128x1
  bcast_S_S128 : S_.BroadcastsInDim S128 (![] : Fin 0 → Fin S128.rank)
  reducesTo_S128x512_S128_d1 : S128x512.ReducesTo [1] S128
  h_S_ : 0 < S_.numel
  bcast_S128_S128x1_0 : S128.BroadcastsInDim S128x1 (![0] : Fin 1 → Fin S128x1.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S64x1_S64x1024 : S64x1.Broadcasts S64x1024
  broadcasts_S1x1024_S64x1024 : S1x1024.Broadcasts S64x1024
  reduces_S64x1024_S64 : S64x1024.Reduces [1] S64
  shapeCasts_S64_S64x1 : S64.ShapeCasts S64x1
  bitsLt_bf16_f32 : FTy.bits .bf16 < FTy.bits .f32
  broadcasts_S64x1_S64x512 : S64x1.Broadcasts S64x512
  gather_S50000x512_S4096x1_S4096x512_1_0_n_n_0_1_1512_wf : GatherDims.WF S50000x512 S4096x1 S4096x512 [1] [0] [] [0] [] 1 ![1, 512]
  dot_S64x512_S1024x512_S64x1024_1_1_0_0_n_n_wf : DotDims.WF S64x512 S1024x512 S64x1024 [1] [1] [0] [0] [] []
  dot_S1x512_S1024x512_S1x1024_1_1_0_0_n_n_wf : DotDims.WF S1x512 S1024x512 S1x1024 [1] [1] [0] [0] [] []
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S128x512.size a
  hwx0_0 : ∀ i : grid0.Coords, EltTy.bits .f32 = 32 ∨ (Rect.block (s := S128x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S128x1.size a
  hwx0_1 : ∀ i : grid0.Coords, EltTy.bits .f32 = 32 ∨ (Rect.block (s := S128x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S128x1.size a
  hwx0_2 : ∀ i : grid0.Coords, EltTy.bits .f32 = 32 ∨ (Rect.block (s := S128x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S128x1.size a
  hwx0_3 : ∀ i : grid0.Coords, EltTy.bits .f32 = 32 ∨ (Rect.block (s := S128x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x512.size a
  hwx0_4 : ∀ i : grid0.Coords, EltTy.bits .f32 = 32 ∨ (Rect.block (s := S4096x512) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .f32 = 32 ∨ (Rect.block (s := S4096x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S128x512.size a
  hwx0_6 : ∀ i : grid0.Coords, EltTy.bits .f32 = 32 ∨ (Rect.block (s := S128x512) S64x512.size (cc0_transform_6 i) (hinb0_6 i)).WholeWords (EltTy.packing .f32)

variable [Facts₀]

def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf
def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21) S64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S128x512 : Shape := ⟨2, ![128, 512]⟩
abbrev S128 : Shape := ⟨1, ![128]⟩
abbrev S50000x512 : Shape := ⟨2, ![50000, 512]⟩
abbrev S4096 : Shape := ⟨1, ![4096]⟩
abbrev S_ : Shape := ⟨0, ![]⟩
abbrev S4096x1 : Shape := ⟨2, ![4096, 1]⟩
abbrev S4096x512 : Shape := ⟨2, ![4096, 512]⟩
abbrev S128x4096 : Shape := ⟨2, ![128, 4096]⟩
abbrev S128x1 : Shape := ⟨2, ![128, 1]⟩
abbrev S1x4096 : Shape := ⟨2, ![1, 4096]⟩

abbrev nBuf : Space → Nat
  | .hbm => 94
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128, .f32⟩
  | .hbm, ⟨2, _⟩ => ⟨S50000x512, .f32⟩
  | .hbm, ⟨3, _⟩ => ⟨S50000x512, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x512, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x512, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128x512, .f32⟩
  | .hbm, ⟨27, _⟩ => ⟨S_, .f32⟩
  | .hbm, ⟨28, _⟩ => ⟨S128, .f32⟩
  | .hbm, ⟨29, _⟩ => ⟨S128x4096, .f32⟩
  | .hbm, ⟨30, _⟩ => ⟨S128x4096, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x512, .f32⟩
  | .hbm, ⟨35, _⟩ => ⟨S_, .f32⟩
  | .hbm, ⟨36, _⟩ => ⟨S4096, .f32⟩
  | .hbm, ⟨37, _⟩ => ⟨S4096x512, .f32⟩
  | .hbm, ⟨38, _⟩ => ⟨S_, .f32⟩
  | .hbm, ⟨39, _⟩ => ⟨S4096, .f32⟩
  | .hbm, ⟨40, _⟩ => ⟨S128x1, .f32⟩
  | .hbm, ⟨41, _⟩ => ⟨S128x1, .f32⟩
  | .hbm, ⟨42, _⟩ => ⟨S128x1, .f32⟩
  | .hbm, ⟨43, _⟩ => ⟨S1x4096, .f32⟩
  | .hbm, ⟨44, _⟩ => ⟨S128x4096, .f32⟩
  | .hbm, ⟨45, _⟩ => ⟨S128x4096, .f32⟩
  | .hbm, ⟨46, _⟩ => ⟨S128x4096, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S1x4096, .f32⟩
  | .hbm, ⟨52, _⟩ => ⟨S128x4096, .f32⟩
  | .hbm, ⟨53, _⟩ => ⟨S128x4096, .f32⟩
  | .hbm, ⟨54, _⟩ => ⟨S128x4096, .f32⟩
  | .hbm, ⟨55, _⟩ => ⟨S128x4096, .f32⟩
  | .hbm, ⟨56, _⟩ => ⟨S128x1, .f32⟩
  | .hbm, ⟨57, _⟩ => ⟨S1x4096, .f32⟩
  | .hbm, ⟨58, _⟩ => ⟨S128x4096, .f32⟩
  | .hbm, ⟨59, _⟩ => ⟨S128x4096, .f32⟩
  | .hbm, ⟨60, _⟩ => ⟨S128x4096, .f32⟩
  | .hbm, ⟨61, _⟩ => ⟨S128x4096, .f32⟩
  | .hbm, ⟨62, _⟩ => ⟨S128x1, .f32⟩
  | .hbm, ⟨63, _⟩ => ⟨S128x4096, .f32⟩
  | .hbm, ⟨64, _⟩ => ⟨S128x4096, .f32⟩
  | .hbm, ⟨65, _⟩ => ⟨S128x4096, .f32⟩
  | .hbm, ⟨66, _⟩ => ⟨S128x4096, .f32⟩
  | .hbm, ⟨67, _⟩ => ⟨S128x4096, .f32⟩
  | .hbm, ⟨68, _⟩ => ⟨S_, .f32⟩
  | .hbm, ⟨69, _⟩ => ⟨S128x4096, .f32⟩
  | .hbm, ⟨70, _⟩ => ⟨S128x4096, .f32⟩
  | .hbm, ⟨71, _⟩ => ⟨S128x4096, .f32⟩
  | .hbm, ⟨72, _⟩ => ⟨S128x4096, .f32⟩
  | .hbm, ⟨73, _⟩ => ⟨S128x4096, .f32⟩
  | .hbm, ⟨74, _⟩ => ⟨S128x4096, .f32⟩
  | .hbm, ⟨75, _⟩ => ⟨S_, .f32⟩
  | .hbm, ⟨76, _⟩ => ⟨S128x4096, .f32⟩
  | .hbm, ⟨77, _⟩ => ⟨S128x4096, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128x1, .f32⟩
  | .hbm, ⟨84, _⟩ => ⟨S128x4096, .f32⟩
  | .hbm, ⟨85, _⟩ => ⟨S128x4096, .f32⟩
  | .hbm, ⟨86, _⟩ => ⟨S128x4096, .f32⟩
  | .hbm, ⟨87, _⟩ => ⟨S_, .f32⟩
  | .hbm, ⟨88, _⟩ => ⟨S128, .f32⟩
  | .hbm, ⟨89, _⟩ => ⟨S128x1, .f32⟩
  | .hbm, ⟨90, _⟩ => ⟨S128x4096, .f32⟩
  | .hbm, ⟨91, _⟩ => ⟨S128x4096, .f32⟩
  | .hbm, ⟨92, _⟩ => ⟨S4096x512, .f32⟩
  | .hbm, ⟨93, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S128 : S_.BroadcastsInDim S128 (![] : Fin 0 → Fin S128.rank)
  reducesTo_S128x512_S128_d1 : S128x512.ReducesTo [1] S128
  h_S_ : 0 < S_.numel
  reducesTo_S4096x512_S4096_d1 : S4096x512.ReducesTo [1] S4096
  bcast_S128_S128x1_0 : S128.BroadcastsInDim S128x1 (![0] : Fin 1 → Fin S128x1.rank)
  bcast_S4096_S1x4096_1 : S4096.BroadcastsInDim S1x4096 (![1] : Fin 1 → Fin S1x4096.rank)
  bcast_S128x1_S128x4096_0_1 : S128x1.BroadcastsInDim S128x4096 (![0, 1] : Fin 2 → Fin S128x4096.rank)
  bcast_S1x4096_S128x4096_0_1 : S1x4096.BroadcastsInDim S128x4096 (![0, 1] : Fin 2 → Fin S128x4096.rank)
  bcast_S_S128x1 : S_.BroadcastsInDim S128x1 (![] : Fin 0 → Fin S128x1.rank)
  bcast_S_S128x4096 : S_.BroadcastsInDim S128x4096 (![] : Fin 0 → Fin S128x4096.rank)
  reducesTo_S128x4096_S128_d1 : S128x4096.ReducesTo [1] S128
  gather_S50000x512_S4096x1_S4096x512_1_0_n_n_0_1_1512_wf : GatherDims.WF S50000x512 S4096x1 S4096x512 [1] [0] [] [0] [] 1 ![1, 512]
  dot_S128x512_S4096x512_S128x4096_1_1_0_0_n_n_wf : DotDims.WF S128x512 S4096x512 S128x4096 [1] [1] [0] [0] [] []
  dot_S128x4096_S4096x512_S128x512_1_0_0_1_n_n_wf : DotDims.WF S128x4096 S4096x512 S128x512 [1] [0] [0] [1] [] []

variable [Facts₀]

def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf
def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

class Facts : Prop extends Facts₀ where

variable [Facts]
-- ==== Proof.SoftmaxDef.lean ====
/-
  Softmax-weighted averages over the extended reals.

  `softmaxAvg N L D` is the average of the values `D n` under the softmax of the logits `L n`, written the way a
  direct evaluation writes it: with `M` the largest logit, the weight of entry `n` is
  `exp (L n - M) / ∑ₖ exp (L k - M)`.

  `Streamed N ℓ δ m l a` is the state of the one-pass evaluation of the same average after it has consumed the first
  `N` entries of real logits `ℓ` and real values `δ`: before anything is consumed the running maximum is `-∞` and both
  running sums are `0`; afterwards `m` is the largest logit `μ` seen so far, `l = ∑ exp (ℓ n - μ)` and
  `a = ∑ exp (ℓ n - μ) · δ n` over the entries seen.
-/
import Idealize.ShloMosaic.PureOps.Ideal

noncomputable section

namespace Cert.NW

open Idealize.ShloMosaic

/-- The largest of the logits `L`, as a fold of `max` from `-∞`. -/
def maxLogit (N : ℕ) (L : Fin N → EReal) : EReal := (Finset.univ : Finset (Fin N)).fold max ⊥ L

/-- The softmax-weighted average of `D` under the logits `L`. -/
def softmaxAvg (N : ℕ) (L D : Fin N → EReal) : EReal :=
  ∑ n : Fin N, Ideal.div (Ideal.exp (L n - maxLogit N L)) (∑ k : Fin N, Ideal.exp (L k - maxLogit N L)) * D n

/-- The one-pass evaluation's state after the first `N` entries. -/
def Streamed (N : ℕ) (ℓ δ : ℕ → ℝ) (m l a : EReal) : Prop :=
  (N = 0 ∧ m = ⊥ ∧ l = 0 ∧ a = 0) ∨
  (0 < N ∧ ∃ μ : ℝ, m = (μ : EReal) ∧ (∀ n < N, ℓ n ≤ μ) ∧ (∃ n < N, ℓ n = μ) ∧
    l = ((∑ n ∈ Finset.range N, Real.exp (ℓ n - μ) : ℝ) : EReal) ∧
    a = ((∑ n ∈ Finset.range N, Real.exp (ℓ n - μ) * δ n : ℝ) : EReal))

/-- Before anything is consumed. -/
theorem Streamed.init (ℓ δ : ℕ → ℝ) : Streamed 0 ℓ δ ⊥ 0 0 := Or.inl ⟨rfl, rfl, rfl, rfl⟩

end Cert.NW

end
-- ==== Proof.Spec.lean ====
/-
  The function both programs compute: Nadaraya–Watson regression with a Gaussian kernel.

  For a query row `b` (a row of `z`, with its time `t b`) and a sample `n` (rows `n` of the two sampled tables `x0`,
  `x1`), the squared distance from `z b` to the interpolated point `t·x1 + (1 - t)·x0` is expanded into inner
  products,
      ‖z‖² - 2·(t·⟨z, x1⟩ + (1 - t)·⟨z, x0⟩) + (t²·‖x1‖² + 2·t·(1 - t)·⟨x1, x0⟩ + (1 - t)²·‖x0‖²),
  the logit of sample `n` is minus that distance divided by `2·bandwidth²`, and the result at `(b, d)` is the
  softmax-weighted average over the samples of `x1 n d - x0 n d`.
-/
import Idealize.ShloMosaic.PureOps.Ideal
import Idealize.ShloMosaic.Lib.ValueIdx
import proofs.«172330_j34153579937939_2_alg».proof.Proof.SoftmaxDef

noncomputable section

namespace Cert.NW

open Idealize.ShloMosaic Idealize.ShloMosaic.ValueIdx

/-- The f32 word of `1.0`. -/
abbrev oneW : EReal := Ideal.ofBits .f32 0x3F800000#32
/-- The f32 word of `2.0`. -/
abbrev twoW : EReal := Ideal.ofBits .f32 0x40000000#32
/-- The f32 word of `2·bandwidth²` (the float nearest `0.32`). -/
abbrev bwW : EReal := Ideal.ofBits .f32 0x3EA3D70A#32

variable (Z : (⟨2, ![128, 512]⟩ : Shape).Idx → EReal) (t : (⟨1, ![128]⟩ : Shape).Idx → EReal)
  (X0 X1 : (⟨2, ![4096, 512]⟩ : Shape).Idx → EReal)

/-- The squared distance from query row `b` to the interpolated sample `n`, expanded into inner products. -/
def sqDist (b : Fin 128) (n : Fin 4096) : EReal :=
  (∑ d : Fin 512, Z (ix2 b d) * Z (ix2 b d))
    - twoW * (t (ix1 b) * (∑ d : Fin 512, Z (ix2 b d) * X1 (ix2 n d))
        + (oneW - t (ix1 b)) * (∑ d : Fin 512, Z (ix2 b d) * X0 (ix2 n d)))
    + (t (ix1 b) * t (ix1 b) * (∑ d : Fin 512, X1 (ix2 n d) * X1 (ix2 n d))
        + twoW * t (ix1 b) * (oneW - t (ix1 b)) * (∑ d : Fin 512, X1 (ix2 n d) * X0 (ix2 n d))
        + (oneW - t (ix1 b)) * (oneW - t (ix1 b)) * (∑ d : Fin 512, X0 (ix2 n d) * X0 (ix2 n d)))

/-- The logit of sample `n` for query row `b`. -/
def logit (b : Fin 128) (n : Fin 4096) : EReal := Ideal.div (-(sqDist Z t X0 X1 b n)) bwW

/-- The difference of the two sampled tables at `(n, d)`. -/
def delta (d : Fin 512) (n : Fin 4096) : EReal := X1 (ix2 n d) - X0 (ix2 n d)

/-- The regression's value at `(b, d)`. -/
def value (b : Fin 128) (d : Fin 512) : EReal :=
  softmaxAvg 4096 (fun n => logit Z t X0 X1 b n) (fun n => delta X0 X1 d n)

/-- The regression as an array. -/
def G : (⟨2, ![128, 512]⟩ : Shape).Idx → EReal := fun i => value Z t X0 X1 (i 0) (i 1)

theorem G_ix2 (b : Fin 128) (d : Fin 512) : G Z t X0 X1 (ix2 b d) = value Z t X0 X1 b d := rfl

end Cert.NW

end
-- ==== Proof.RefValue.lean ====
/-
  The reference program's result is the specification function.

  The reference evaluates, for a query row b and a sample n, the squared distance from the query to the
  interpolated sample, expanded into inner products; divides minus that distance by the bandwidth constant to get
  the logit; takes the largest logit of the row; exponentiates the differences, sums them, divides; and contracts the
  resulting weights with the difference of the two sampled tables. Each stage is read at its coordinates, then the
  stages are chained.
-/
import proofs.«172330_j34153579937939_2_alg».proof.Proof.Gen.ReferenceIdeal.Read
import proofs.«172330_j34153579937939_2_alg».proof.Proof.Spec
import Idealize.ShloMosaic.Lib.ValueIdx
import Idealize.ShloMosaic.PureOps.Ideal.Laws
import Idealize.ShloMosaic.PureOps.Reduce

noncomputable section

namespace Cert.NW.Ref

open Cert.ReferenceIdeal Cert.ReferenceIdeal.Gen Cert.ReferenceIdeal.Read Idealize.ShloMosaic Idealize.ShloMosaic.ValueIdx

/-! ## The composed index functions at coordinates -/

/-- Two indices of a literal shape of rank one or two are equal when their coordinates are. -/
local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))

-- row sums: the summed axis is the second one
theorem i17 (b : Fin 128) (k : Fin 512) : idx_main_v17 (ix1 b) k = ix2 b k := by idx2
theorem i21 (n : Fin 4096) (k : Fin 512) : idx_main_v21 (ix1 n) k = ix2 n k := by idx2
theorem i23 (n : Fin 4096) (k : Fin 512) : idx_main_v23 (ix1 n) k = ix2 n k := by idx2
theorem i25 (n : Fin 4096) (k : Fin 512) : idx_main_v25 (ix1 n) k = ix2 n k := by idx2
theorem i68 (b : Fin 128) (k : Fin 4096) : idx_main_v68 (ix1 b) k = ix2 b k := by idx2
-- the contractions
theorem l18 (b : Fin 128) (n : Fin 4096) (k : Fin 512) : lidx_main_v18 (ix2 b n) k = ix2 b k := by idx2
theorem r18 (b : Fin 128) (n : Fin 4096) (k : Fin 512) : ridx_main_v18 (ix2 b n) k = ix2 n k := by idx2
theorem l19 (b : Fin 128) (n : Fin 4096) (k : Fin 512) : lidx_main_v19 (ix2 b n) k = ix2 b k := by idx2
theorem r19 (b : Fin 128) (n : Fin 4096) (k : Fin 512) : ridx_main_v19 (ix2 b n) k = ix2 n k := by idx2
theorem l73 (b : Fin 128) (d : Fin 512) (k : Fin 4096) : lidx_main_v73 (ix2 b d) k = ix2 b k := by idx2
theorem r73 (b : Fin 128) (d : Fin 512) (k : Fin 4096) : ridx_main_v73 (ix2 b d) k = ix2 k d := by idx2
-- a row vector as a column
theorem i26 (b : Fin 128) (z : Fin 1) : idx_main_v26 (ix2 b z) = ix1 b := by idx1
theorem i27 (b : Fin 128) (z : Fin 1) : idx_main_v27 (ix2 b z) = ix1 b := by idx1
theorem i47 (b : Fin 128) (z : Fin 1) : idx_main_v47 (ix2 b z) = ix1 b := by idx1
theorem i64 (b : Fin 128) (z : Fin 1) : idx_main_v64 (ix2 b z) = ix1 b := by idx1
theorem i69 (b : Fin 128) (z : Fin 1) : idx_main_v69 (ix2 b z) = ix1 b := by idx1
-- a sample vector as a row
theorem i29 (z : Fin 1) (n : Fin 4096) : idx_main_v29 (ix2 z n) = ix1 n := by idx1
theorem i36 (z : Fin 1) (n : Fin 4096) : idx_main_v36 (ix2 z n) = ix1 n := by idx1
theorem i42 (z : Fin 1) (n : Fin 4096) : idx_main_v42 (ix2 z n) = ix1 n := by idx1
-- a column repeated along the samples
theorem i30 (b : Fin 128) (n : Fin 4096) : idx_main_v30 (ix2 b n) = ix2 b (0 : Fin 1) := by idx2
theorem i37 (b : Fin 128) (n : Fin 4096) : idx_main_v37 (ix2 b n) = ix2 b (0 : Fin 1) := by idx2
theorem i43 (b : Fin 128) (n : Fin 4096) : idx_main_v43 (ix2 b n) = ix2 b (0 : Fin 1) := by idx2
theorem i48 (b : Fin 128) (n : Fin 4096) : idx_main_v48 (ix2 b n) = ix2 b (0 : Fin 1) := by idx2
theorem i50 (b : Fin 128) (n : Fin 4096) : idx_main_v50 (ix2 b n) = ix2 b (0 : Fin 1) := by idx2
theorem i55 (b : Fin 128) (n : Fin 4096) : idx_main_v55 (ix2 b n) = ix2 b (0 : Fin 1) := by idx2
theorem i65 (b : Fin 128) (n : Fin 4096) : idx_main_v65 (ix2 b n) = ix2 b (0 : Fin 1) := by idx2
theorem i70 (b : Fin 128) (n : Fin 4096) : idx_main_v70 (ix2 b n) = ix2 b (0 : Fin 1) := by idx2
-- a row repeated along the queries
theorem i31 (b : Fin 128) (n : Fin 4096) : idx_main_v31 (ix2 b n) = ix2 (0 : Fin 1) n := by idx2
theorem i38 (b : Fin 128) (n : Fin 4096) : idx_main_v38 (ix2 b n) = ix2 (0 : Fin 1) n := by idx2
theorem i44 (b : Fin 128) (n : Fin 4096) : idx_main_v44 (ix2 b n) = ix2 (0 : Fin 1) n := by idx2

/-! ## The stages at coordinates -/

section Stages

variable (x0 : (⟨S128x512, .f32⟩ : BufTy).Contents (Elt Ideal)) (x1 : (⟨S128, .f32⟩ : BufTy).Contents (Elt Ideal))
  (x2 x3 : (⟨S50000x512, .f32⟩ : BufTy).Contents (Elt Ideal)) (x4 : (⟨S4096, .i32⟩ : BufTy).Contents (Elt Ideal))

/-- The query row's squared norm. -/
theorem zz_at (b : Fin 128) :
    val_main_v17 (F := Ideal) x0 (ix1 b) = ∑ d : Fin 512, x0 (ix2 b d) * x0 (ix2 b d) := by
  rw [val_main_v17_apply, val_main_cst_3_apply]
  simp only [Ideal.ofBits_def, Ideal.ofBits_zero_f32, zero_add, val_main_v16_apply, Ideal.mulf_def, i17]

/-- The query row against the second table's sample. -/
theorem zx1_at (b : Fin 128) (n : Fin 4096) :
    val_main_v18 (F := Ideal) x0 x3 x4 (ix2 b n)
      = ∑ d : Fin 512, x0 (ix2 b d) * val_main_v13 (F := Ideal) x3 x4 (ix2 n d) := by
  rw [val_main_v18_apply]
  simp only [l18, r18]

/-- The query row against the first table's sample. -/
theorem zx0_at (b : Fin 128) (n : Fin 4096) :
    val_main_v19 (F := Ideal) x0 x2 x4 (ix2 b n)
      = ∑ d : Fin 512, x0 (ix2 b d) * val_main_v6 (F := Ideal) x2 x4 (ix2 n d) := by
  rw [val_main_v19_apply]
  simp only [l19, r19]

/-- The second table's sample, squared norm. -/
theorem x1x1_at (n : Fin 4096) :
    val_main_v21 (F := Ideal) x3 x4 (ix1 n)
      = ∑ d : Fin 512, val_main_v13 (F := Ideal) x3 x4 (ix2 n d) * val_main_v13 (F := Ideal) x3 x4 (ix2 n d) := by
  rw [val_main_v21_apply, val_main_cst_4_apply]
  simp only [Ideal.ofBits_def, Ideal.ofBits_zero_f32, zero_add, val_main_v20_apply, Ideal.mulf_def, i21]

/-- The first table's sample, squared norm. -/
theorem x0x0_at (n : Fin 4096) :
    val_main_v23 (F := Ideal) x2 x4 (ix1 n)
      = ∑ d : Fin 512, val_main_v6 (F := Ideal) x2 x4 (ix2 n d) * val_main_v6 (F := Ideal) x2 x4 (ix2 n d) := by
  rw [val_main_v23_apply, val_main_cst_5_apply]
  simp only [Ideal.ofBits_def, Ideal.ofBits_zero_f32, zero_add, val_main_v22_apply, Ideal.mulf_def, i23]

/-- The two tables' samples against each other. -/
theorem x1x0_at (n : Fin 4096) :
    val_main_v25 (F := Ideal) x2 x3 x4 (ix1 n)
      = ∑ d : Fin 512, val_main_v13 (F := Ideal) x3 x4 (ix2 n d) * val_main_v6 (F := Ideal) x2 x4 (ix2 n d) := by
  rw [val_main_v25_apply, val_main_cst_6_apply]
  simp only [Ideal.ofBits_def, Ideal.ofBits_zero_f32, zero_add, val_main_v24_apply, Ideal.mulf_def, i25]

/-- The time as a column. -/
theorem t_at (b : Fin 128) (z : Fin 1) : val_main_v26 (F := Ideal) x1 (ix2 b z) = x1 (ix1 b) := by
  rw [val_main_v26_apply, i26]

/-- One minus the time, as a column. -/
theorem omt_at (b : Fin 128) (z : Fin 1) : val_main_v27 (F := Ideal) x1 (ix2 b z) = oneW - x1 (ix1 b) := by
  rw [val_main_v27_apply, i27, val_main_v15_apply, val_main_v14_apply, val_main_cst_apply]
  simp only [Ideal.ofBits_def, Ideal.subf_def]

/-- The interpolated sample's squared norm, expanded. -/
theorem mix_at (b : Fin 128) (n : Fin 4096) :
    val_main_v46 (F := Ideal) x1 x2 x3 x4 (ix2 b n)
      = x1 (ix1 b) * x1 (ix1 b)
            * (∑ d : Fin 512, val_main_v13 (F := Ideal) x3 x4 (ix2 n d) * val_main_v13 (F := Ideal) x3 x4 (ix2 n d))
          + twoW * x1 (ix1 b) * (oneW - x1 (ix1 b))
            * (∑ d : Fin 512, val_main_v13 (F := Ideal) x3 x4 (ix2 n d) * val_main_v6 (F := Ideal) x2 x4 (ix2 n d))
          + (oneW - x1 (ix1 b)) * (oneW - x1 (ix1 b))
            * (∑ d : Fin 512, val_main_v6 (F := Ideal) x2 x4 (ix2 n d) * val_main_v6 (F := Ideal) x2 x4 (ix2 n d)) := by
  simp only [val_main_v46_apply, val_main_v40_apply, val_main_v32_apply, val_main_v39_apply, val_main_v45_apply,
    val_main_v30_apply, val_main_v31_apply, val_main_v37_apply, val_main_v38_apply, val_main_v43_apply,
    val_main_v44_apply, i30, i31, i37, i38, i43, i44, val_main_v28_apply, val_main_v29_apply, val_main_v35_apply,
    val_main_v36_apply, val_main_v41_apply, val_main_v42_apply, i29, i36, i42, val_main_v34_apply, val_main_v33_apply,
    val_main_cst_7_apply, t_at, omt_at, x1x1_at, x1x0_at, x0x0_at, Ideal.ofBits_def, Ideal.mulf_def, Ideal.addf_def]

/-- The query row against the interpolated sample, doubled. -/
theorem cross_at (b : Fin 128) (n : Fin 4096) :
    val_main_v54 (F := Ideal) x0 x1 x2 x3 x4 (ix2 b n)
      = twoW * (x1 (ix1 b) * (∑ d : Fin 512, x0 (ix2 b d) * val_main_v13 (F := Ideal) x3 x4 (ix2 n d))
          + (oneW - x1 (ix1 b)) * (∑ d : Fin 512, x0 (ix2 b d) * val_main_v6 (F := Ideal) x2 x4 (ix2 n d))) := by
  simp only [val_main_v54_apply, val_main_v53_apply, val_main_cst_8_apply, val_main_v52_apply, val_main_v49_apply,
    val_main_v51_apply, val_main_v48_apply, val_main_v50_apply, i48, i50, t_at, omt_at, zx1_at, zx0_at,
    Ideal.ofBits_def, Ideal.mulf_def, Ideal.addf_def]

/-- The logit of sample n for query row b. -/
theorem logit_at (b : Fin 128) (n : Fin 4096) :
    val_main_v60 (F := Ideal) x0 x1 x2 x3 x4 (ix2 b n)
      = logit x0 x1 (val_main_v6 (F := Ideal) x2 x4) (val_main_v13 (F := Ideal) x3 x4) b n := by
  unfold logit sqDist
  simp only [val_main_v60_apply, val_main_v59_apply, val_main_cst_9_apply, val_main_v58_apply, val_main_v57_apply,
    val_main_v56_apply, val_main_v55_apply, i55, val_main_v47_apply, i47, zz_at, cross_at, mix_at,
    Ideal.ofBits_def, Ideal.hostDivf_def, Ideal.hostNegf_def, Ideal.negf_def, Ideal.subf_def, Ideal.addf_def]

/-- The f32 word of minus infinity is the least extended real. -/
theorem negInfW : Ideal.ofBits .f32 0xFF800000#32 = (⊥ : EReal) := by simp [Ideal.ofBits, Ideal.ieee]

/-- The row's maximum, as the reference folds it over the samples from minus infinity. -/
theorem fold_at (b : Fin 128) :
    val_main_v61 (F := Ideal) x0 x1 x2 x3 x4 (ix1 b)
      = maxLogit 4096 (fun n => logit x0 x1 (val_main_v6 (F := Ideal) x2 x4) (val_main_v13 (F := Ideal) x3 x4) b n) := by
  unfold val_main_v61 maxLogit
  rw [Host.reduce_eq_fold_single FloatOps.maximumf _ _ reducesTo_S128x4096_S128_d1 (by decide) h_S_ (ix1 b),
    val_main_cst_10_apply, Ideal.ofBits_def, negInfW]
  have e : (val_main_v60 (F := Ideal) x0 x1 x2 x3 x4 ∘ Shape.Reduces.lift (s := S128x4096) (a := 1) (t := S128) (by decide) (ix1 b))
      = fun n : Fin 4096 => logit x0 x1 (val_main_v6 (F := Ideal) x2 x4) (val_main_v13 (F := Ideal) x3 x4) b n :=
    funext fun k => (congrArg (val_main_v60 (F := Ideal) x0 x1 x2 x3 x4)
      (funext fun a => Fin.ext (by match a with | ⟨0, _⟩ => rfl | ⟨1, _⟩ => rfl))).trans (logit_at x0 x1 x2 x3 x4 b k)
  rw [e]
  rfl

/-- Taking the maximum with minus infinity once more changes nothing. -/
theorem rowmax_at (b : Fin 128) :
    val_main_v63 (F := Ideal) x0 x1 x2 x3 x4 (ix1 b)
      = maxLogit 4096 (fun n => logit x0 x1 (val_main_v6 (F := Ideal) x2 x4) (val_main_v13 (F := Ideal) x3 x4) b n) := by
  rw [val_main_v63_apply, val_main_v62_apply, val_main_cst_11_apply, fold_at]
  simp only [Ideal.ofBits_def, negInfW, Ideal.maximumf_def, max_bot_left]

/-- The exponential of a logit's distance below the row's maximum. -/
theorem exp_at (b : Fin 128) (n : Fin 4096) :
    val_main_v67 (F := Ideal) x0 x1 x2 x3 x4 (ix2 b n)
      = Ideal.exp (logit x0 x1 (val_main_v6 (F := Ideal) x2 x4) (val_main_v13 (F := Ideal) x3 x4) b n
          - maxLogit 4096 (fun k => logit x0 x1 (val_main_v6 (F := Ideal) x2 x4) (val_main_v13 (F := Ideal) x3 x4) b k)) := by
  simp only [val_main_v67_apply, val_main_v66_apply, val_main_v65_apply, i65, val_main_v64_apply, i64, logit_at,
    rowmax_at, Ideal.hostUnary_exp_def, Ideal.subf_def]

/-- The row's normalizer. -/
theorem norm_at (b : Fin 128) :
    val_main_v68 (F := Ideal) x0 x1 x2 x3 x4 (ix1 b)
      = ∑ k : Fin 4096, Ideal.exp (logit x0 x1 (val_main_v6 (F := Ideal) x2 x4) (val_main_v13 (F := Ideal) x3 x4) b k
          - maxLogit 4096 (fun k => logit x0 x1 (val_main_v6 (F := Ideal) x2 x4) (val_main_v13 (F := Ideal) x3 x4) b k)) := by
  rw [val_main_v68_apply, val_main_cst_12_apply]
  simp only [Ideal.ofBits_def, Ideal.ofBits_zero_f32, zero_add, i68, exp_at]

/-- The softmax weight of sample n for query row b. -/
theorem weight_at (b : Fin 128) (n : Fin 4096) :
    val_main_v71 (F := Ideal) x0 x1 x2 x3 x4 (ix2 b n)
      = Ideal.div
          (Ideal.exp (logit x0 x1 (val_main_v6 (F := Ideal) x2 x4) (val_main_v13 (F := Ideal) x3 x4) b n
            - maxLogit 4096 (fun k => logit x0 x1 (val_main_v6 (F := Ideal) x2 x4) (val_main_v13 (F := Ideal) x3 x4) b k)))
          (∑ k : Fin 4096, Ideal.exp (logit x0 x1 (val_main_v6 (F := Ideal) x2 x4) (val_main_v13 (F := Ideal) x3 x4) b k
            - maxLogit 4096 (fun k => logit x0 x1 (val_main_v6 (F := Ideal) x2 x4) (val_main_v13 (F := Ideal) x3 x4) b k))) := by
  simp only [val_main_v71_apply, val_main_v70_apply, i70, val_main_v69_apply, i69, exp_at, norm_at, Ideal.hostDivf_def]

/-- The difference of the two sampled tables. -/
theorem delta_at (n : Fin 4096) (d : Fin 512) :
    val_main_v72 (F := Ideal) x2 x3 x4 (ix2 n d)
      = delta (val_main_v6 (F := Ideal) x2 x4) (val_main_v13 (F := Ideal) x3 x4) d n := by
  unfold delta
  rw [val_main_v72_apply, Ideal.subf_def]

end Stages

/-! ## The result -/

/-- The reference program's result is the regression, index by index: the last contraction sums, over the samples,
    the softmax weight times the tables' difference. -/
theorem ref_eq (x0 : (⟨Cert.ReferenceIdeal.S128x512, .f32⟩ : BufTy).Contents (Elt Ideal)) (x1 : (⟨Cert.ReferenceIdeal.S128, .f32⟩ : BufTy).Contents (Elt Ideal))
    (x2 x3 : (⟨Cert.ReferenceIdeal.S50000x512, .f32⟩ : BufTy).Contents (Elt Ideal)) (x4 : (⟨Cert.ReferenceIdeal.S4096, .i32⟩ : BufTy).Contents (Elt Ideal)) :
    Cert.ReferenceIdeal.Read.val_main_v73 (F := Ideal) x0 x1 x2 x3 x4
      = Cert.NW.G x0 x1 (Cert.ReferenceIdeal.Read.val_main_v6 (F := Ideal) x2 x4) (Cert.ReferenceIdeal.Read.val_main_v13 (F := Ideal) x3 x4) := by
  funext i
  obtain ⟨b, d, rfl⟩ : ∃ (b : Fin 128) (d : Fin 512), i = ix2 b d := ⟨i 0, i 1, eq_ix2 i⟩
  rw [G_ix2, val_main_v73_apply]
  unfold value softmaxAvg
  simp only [l73, r73, weight_at, delta_at]

end Cert.NW.Ref

end
-- ==== Proof.KStep.lean ====
/-
  One grid step of the kernel body as three functions of its blocks and of the carried state.

  The step's blocks are `zb` (64 query rows), the columns `ab`, `bb`, `z2b` and the tile's sample rows `x0b`, `x1b`;
  the carried state is the running maximum `mo`, the running sum `lo` and the running weighted sum `ao`.
  `tileLogit` is the tile's logits, `stepM` / `stepL` / `stepA` the state the step leaves, `quotient` the result the
  last step of a row block writes, and `m0` / `l0` / `a0` the state the first step starts from.
-/
import proofs.«172330_j34153579937939_2_alg».proof.Proof.Gen.KernelIdeal.Skeleton

noncomputable section

namespace Cert.NW.KStep

open Cert.KernelIdeal Cert.KernelIdeal.Gen Idealize.ShloMosaic

variable {F : FTy → Type} [FloatOps F] [Named F]

variable (zb : Vec F S64x512 .f32) (ab bb z2b : Vec F S64x1 .f32) (x0b x1b : Vec F S1024x512 .f32)

/-- The tile's logits. -/
def tileLogit : FVec F S64x1024 .f32 :=
  k0_pay18 (k0_pay7 ab) (k0_pay8 bb) (k0_pay9 z2b) (k0_pay12 zb x1b) (k0_pay13 zb x0b) (k0_pay15 x0b) (k0_pay16 ab bb x0b x1b) (k0_pay17 bb)

/-- The running maximum after the step. -/
def stepM (mo : Vec F S64x1 .f32) : FVec F S64x1 .f32 :=
  k0_pay2 (k0_pay19 (k0_pay7 ab) (k0_pay8 bb) (k0_pay9 z2b) (k0_pay12 zb x1b) (k0_pay13 zb x0b) (k0_pay15 x0b) (k0_pay16 ab bb x0b x1b) (k0_pay17 bb) mo)

/-- The running sum after the step. -/
def stepL (mo lo : Vec F S64x1 .f32) : FVec F S64x1 .f32 :=
  k0_pay22 (k0_pay7 ab) (k0_pay8 bb) (k0_pay9 z2b) (k0_pay12 zb x1b) (k0_pay13 zb x0b) (k0_pay15 x0b) (k0_pay16 ab bb x0b x1b) (k0_pay17 bb) mo mo lo

/-- The running weighted sum after the step. -/
def stepA (mo : Vec F S64x1 .f32) (ao : Vec F S64x512 .f32) : FVec F S64x512 .f32 :=
  k0_pay1 (k0_pay23 (k0_pay7 ab) (k0_pay8 bb) (k0_pay9 z2b) (k0_pay10 x0b) (k0_pay11 x1b) (k0_pay12 zb x1b) (k0_pay13 zb x0b) (k0_pay15 x0b) (k0_pay16 ab bb x0b x1b) (k0_pay17 bb) mo mo ao)

/-- The result the last step of a row block writes: the weighted sum over the sum. -/
def quotient (acc : Vec F S64x512 .f32) (l : Vec F S64x1 .f32) : FVec F S64x512 .f32 := k0_pay3 acc l

/-- The state the first step of a row block starts from: `-∞`, `0`, `0`. -/
def m0 : FVec F S64x1 .f32 := k0_pay4
def l0 : FVec F S64x1 .f32 := k0_pay5
def a0 : FVec F S64x512 .f32 := k0_pay6

end Cert.NW.KStep

end
-- ==== Proof.KMatmul.lean ====
/-
  The three matrix products of the kernel body, read at an index over the extended reals.

  Into a zero accumulator a product is the plain sum over the contracted axis:
    [64,512]·[1024,512]ᵀ at (p, j)  is  ∑ₖ l (p, k) · r (j, k)       (the two score products ⟨z, x⟩),
    [1,512]·[1024,512]ᵀ  at (0, j)  is  ∑ₖ l (0, k) · r (j, k)       (a row of ones against x∘x: the squared norms),
    [64,1024]·[1024,512] at (p, d)  is  ∑ₖ l (p, k) · r (k, d)       (the weights against x1 - x0).
-/
import proofs.«172330_j34153579937939_2_alg».proof.Proof.Gen.KernelIdeal.Skeleton
import Idealize.ShloMosaic.Lib.ValueIdx
import Idealize.ShloMosaic.PureOps.Ideal.Laws

noncomputable section

namespace Cert.NW.KMatmul

open Cert.KernelIdeal Idealize.ShloMosaic Idealize.ShloMosaic.ValueIdx

/-- The score product at `(p, j)`: row `p` of the left operand against row `j` of the right. -/
theorem scores_apply (l : FVec Ideal S64x512 .f32) (r : FVec Ideal S1024x512 .f32) (p : Fin 64) (j : Fin 1024) :
    matmul dot_S64x512_S1024x512_S64x1024_1_1_0_0_n_n (some .fp32) l r (constant (F := Ideal) S64x1024 .f32 0x00000000#32) (ix2 p j)
      = ∑ k : Fin 512, l (ix2 p k) * r (ix2 j k) := by
  refine (Ideal.matmul_constant_zero_apply dot_S64x512_S1024x512_S64x1024_1_1_0_0_n_n (some .fp32) l r (ix2 p j)).trans ?_
  rw [← Equiv.sum_comp (contrEquiv1 dot_S64x512_S1024x512_S64x1024_1_1_0_0_n_n 512 rfl rfl).symm]
  refine Finset.sum_congr rfl fun k _ => ?_
  have hk := contrEquiv1_symm_val dot_S64x512_S1024x512_S64x1024_1_1_0_0_n_n 512 rfl rfl k
  have el : dot_S64x512_S1024x512_S64x1024_1_1_0_0_n_n.lhsIdx (ix2 p j) ((contrEquiv1 dot_S64x512_S1024x512_S64x1024_1_1_0_0_n_n 512 rfl rfl).symm k) = ix2 p k := funext fun a => Fin.ext (by
    match a with
    | ⟨0, _⟩ =>
      show (dot_S64x512_S1024x512_S64x1024_1_1_0_0_n_n.lhsIdx _ _ 0).val = p.val
      unfold DotDims.lhsIdx
      rw [dif_neg (show ¬(0 : Fin S64x512.rank) ∈ dot_S64x512_S1024x512_S64x1024_1_1_0_0_n_n.lhsBatch by decide), dif_pos (show (0 : Fin S64x512.rank) ∈ dot_S64x512_S1024x512_S64x1024_1_1_0_0_n_n.lhsNonContracting by decide)]
      rfl
    | ⟨1, _⟩ => exact (dot_S64x512_S1024x512_S64x1024_1_1_0_0_n_n.lhsIdx_val_of_single rfl _ _).trans hk)
  have er : dot_S64x512_S1024x512_S64x1024_1_1_0_0_n_n.rhsIdx (ix2 p j) ((contrEquiv1 dot_S64x512_S1024x512_S64x1024_1_1_0_0_n_n 512 rfl rfl).symm k) = ix2 j k := funext fun a => Fin.ext (by
    match a with
    | ⟨0, _⟩ =>
      show (dot_S64x512_S1024x512_S64x1024_1_1_0_0_n_n.rhsIdx _ _ 0).val = j.val
      unfold DotDims.rhsIdx
      rw [dif_neg (show ¬(0 : Fin S1024x512.rank) ∈ dot_S64x512_S1024x512_S64x1024_1_1_0_0_n_n.rhsBatch by decide), dif_pos (show (0 : Fin S1024x512.rank) ∈ dot_S64x512_S1024x512_S64x1024_1_1_0_0_n_n.rhsNonContracting by decide)]
      rfl
    | ⟨1, _⟩ => exact (dot_S64x512_S1024x512_S64x1024_1_1_0_0_n_n.rhsIdx_val_of_single rfl _ _).trans hk)
  rw [el, er]

/-- The row product at `(0, j)`: the one row of the left operand against row `j` of the right. -/
theorem rownorm_apply (l : FVec Ideal S1x512 .f32) (r : FVec Ideal S1024x512 .f32) (u : Fin 1) (j : Fin 1024) :
    matmul dot_S1x512_S1024x512_S1x1024_1_1_0_0_n_n (some .fp32) l r (constant (F := Ideal) S1x1024 .f32 0x00000000#32) (ix2 u j)
      = ∑ k : Fin 512, l (ix2 u k) * r (ix2 j k) := by
  refine (Ideal.matmul_constant_zero_apply dot_S1x512_S1024x512_S1x1024_1_1_0_0_n_n (some .fp32) l r (ix2 u j)).trans ?_
  rw [← Equiv.sum_comp (contrEquiv1 dot_S1x512_S1024x512_S1x1024_1_1_0_0_n_n 512 rfl rfl).symm]
  refine Finset.sum_congr rfl fun k _ => ?_
  have hk := contrEquiv1_symm_val dot_S1x512_S1024x512_S1x1024_1_1_0_0_n_n 512 rfl rfl k
  have el : dot_S1x512_S1024x512_S1x1024_1_1_0_0_n_n.lhsIdx (ix2 u j) ((contrEquiv1 dot_S1x512_S1024x512_S1x1024_1_1_0_0_n_n 512 rfl rfl).symm k) = ix2 u k := funext fun a => Fin.ext (by
    match a with
    | ⟨0, _⟩ =>
      show (dot_S1x512_S1024x512_S1x1024_1_1_0_0_n_n.lhsIdx _ _ 0).val = u.val
      unfold DotDims.lhsIdx
      rw [dif_neg (show ¬(0 : Fin S1x512.rank) ∈ dot_S1x512_S1024x512_S1x1024_1_1_0_0_n_n.lhsBatch by decide), dif_pos (show (0 : Fin S1x512.rank) ∈ dot_S1x512_S1024x512_S1x1024_1_1_0_0_n_n.lhsNonContracting by decide)]
      rfl
    | ⟨1, _⟩ => exact (dot_S1x512_S1024x512_S1x1024_1_1_0_0_n_n.lhsIdx_val_of_single rfl _ _).trans hk)
  have er : dot_S1x512_S1024x512_S1x1024_1_1_0_0_n_n.rhsIdx (ix2 u j) ((contrEquiv1 dot_S1x512_S1024x512_S1x1024_1_1_0_0_n_n 512 rfl rfl).symm k) = ix2 j k := funext fun a => Fin.ext (by
    match a with
    | ⟨0, _⟩ =>
      show (dot_S1x512_S1024x512_S1x1024_1_1_0_0_n_n.rhsIdx _ _ 0).val = j.val
      unfold DotDims.rhsIdx
      rw [dif_neg (show ¬(0 : Fin S1024x512.rank) ∈ dot_S1x512_S1024x512_S1x1024_1_1_0_0_n_n.rhsBatch by decide), dif_pos (show (0 : Fin S1024x512.rank) ∈ dot_S1x512_S1024x512_S1x1024_1_1_0_0_n_n.rhsNonContracting by decide)]
      rfl
    | ⟨1, _⟩ => exact (dot_S1x512_S1024x512_S1x1024_1_1_0_0_n_n.rhsIdx_val_of_single rfl _ _).trans hk)
  rw [el, er]

/-- The weighted sum at `(p, d)`: row `p` of the weights against column `d` of the values (the operands' 16-bit
    formats are the identity over the extended reals). -/
theorem weighted_apply (l : FVec Ideal S64x1024 .bf16) (r : FVec Ideal S1024x512 .bf16) (p : Fin 64) (d : Fin 512) :
    matmul dot_S64x1024_S1024x512_S64x512_1_0_0_1_n_n none l r (constant (F := Ideal) S64x512 .f32 0x00000000#32) (ix2 p d)
      = ∑ k : Fin 1024, l (ix2 p k) * r (ix2 k d) := by
  refine (Ideal.matmul_constant_zero_apply dot_S64x1024_S1024x512_S64x512_1_0_0_1_n_n none l r (ix2 p d)).trans ?_
  rw [← Equiv.sum_comp (contrEquiv1 dot_S64x1024_S1024x512_S64x512_1_0_0_1_n_n 1024 rfl rfl).symm]
  refine Finset.sum_congr rfl fun k _ => ?_
  have hk := contrEquiv1_symm_val dot_S64x1024_S1024x512_S64x512_1_0_0_1_n_n 1024 rfl rfl k
  have el : dot_S64x1024_S1024x512_S64x512_1_0_0_1_n_n.lhsIdx (ix2 p d) ((contrEquiv1 dot_S64x1024_S1024x512_S64x512_1_0_0_1_n_n 1024 rfl rfl).symm k) = ix2 p k := funext fun a => Fin.ext (by
    match a with
    | ⟨0, _⟩ =>
      show (dot_S64x1024_S1024x512_S64x512_1_0_0_1_n_n.lhsIdx _ _ 0).val = p.val
      unfold DotDims.lhsIdx
      rw [dif_neg (show ¬(0 : Fin S64x1024.rank) ∈ dot_S64x1024_S1024x512_S64x512_1_0_0_1_n_n.lhsBatch by decide), dif_pos (show (0 : Fin S64x1024.rank) ∈ dot_S64x1024_S1024x512_S64x512_1_0_0_1_n_n.lhsNonContracting by decide)]
      rfl
    | ⟨1, _⟩ => exact (dot_S64x1024_S1024x512_S64x512_1_0_0_1_n_n.lhsIdx_val_of_single rfl _ _).trans hk)
  have er : dot_S64x1024_S1024x512_S64x512_1_0_0_1_n_n.rhsIdx (ix2 p d) ((contrEquiv1 dot_S64x1024_S1024x512_S64x512_1_0_0_1_n_n 1024 rfl rfl).symm k) = ix2 k d := funext fun a => Fin.ext (by
    match a with
    | ⟨0, _⟩ => exact (dot_S64x1024_S1024x512_S64x512_1_0_0_1_n_n.rhsIdx_val_of_single rfl _ _).trans hk
    | ⟨1, _⟩ =>
      show (dot_S64x1024_S1024x512_S64x512_1_0_0_1_n_n.rhsIdx _ _ 1).val = d.val
      unfold DotDims.rhsIdx
      rw [dif_neg (show ¬(1 : Fin S1024x512.rank) ∈ dot_S64x1024_S1024x512_S64x512_1_0_0_1_n_n.rhsBatch by decide), dif_pos (show (1 : Fin S1024x512.rank) ∈ dot_S64x1024_S1024x512_S64x512_1_0_0_1_n_n.rhsNonContracting by decide)]
      rfl)
  rw [el, er]

end Cert.NW.KMatmul

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.KTile.lean ====
/-
  One grid step of the kernel body as arithmetic on its blocks, read at an index over the extended reals.

  A step sees a block `zb` of 64 query rows, their columns `ab` (= t), `bb` (= 1 - t) and `z2b` (= ‖z‖²), and the
  tile's 1024 sample rows `x0b`, `x1b`. From these it forms the tile's logits; and from the running maximum `mo`, the
  running sum `lo` and the running weighted sum `ao` it forms the new three:
      m' = max mo (max over the tile of the logits),
      l' = exp (mo - m') · lo + ∑ⱼ exp (logitⱼ - m'),
      a' = exp (mo - m') · ao + ∑ⱼ exp (logitⱼ - m') · (x1b - x0b)ⱼ.
-/
import proofs.«172330_j34153579937939_2_alg».proof.Proof.KMatmul
import proofs.«172330_j34153579937939_2_alg».proof.Proof.KStep
import proofs.«172330_j34153579937939_2_alg».proof.Proof.Spec
import proofs.«172330_j34153579937939_2_alg».proof.Proof.LibKeepdims
import proofs.«172330_j34153579937939_2_alg».proof.Proof.LibERealAlgebra
import Idealize.ShloMosaic.Lib.ValueLayout
import Idealize.ShloMosaic.Lib.Pipeline.Value
import Idealize.ShloMosaic.PureOps.IdealRules

noncomputable section

namespace Cert.NW.KTile

open Cert.KernelIdeal Cert.KernelIdeal.Gen Idealize.ShloMosaic Idealize.ShloMosaic.ValueIdx

/-! ## Constants -/

/-- The word of `-∞` is the bottom of the extended reals. -/
theorem ofBits_ninf : Ideal.ofBits .f32 0xFF800000#32 = (⊥ : EReal) := by
  simp [Ideal.ofBits, Ideal.ieee]

/-- The float nearest `0.32` is `5368709 / 2²⁴`. -/
theorem ofBits_bw : Ideal.ofBits .f32 0x3EA3D70A#32 = ((5368709 / 16777216 : ℝ) : EReal) := by
  simp [Ideal.ofBits, Ideal.ieee, -EReal.coe_mul]; norm_num

/-- The kernel's named reciprocal is `2²⁴ / 5368709`, the exact reciprocal of that float. -/
theorem named_inv : Named.named (F := Ideal) κ "inv_2bw2" (φ := .f32) 0x40480000#32 = ((16777216 / 5368709 : ℝ) : EReal) :=
  IdealRules.named_const.ideal_named_scalar _ _ _ _ rfl

/-- Multiplying `0 - x` by the named reciprocal is dividing `-x` by the float nearest `0.32`. -/
theorem scale_eq (x : EReal) :
    (Ideal.ofBits .f32 0x00000000#32 - x) * Named.named (F := Ideal) κ "inv_2bw2" (φ := .f32) 0x40480000#32
      = Ideal.div (-x) NW.bwW := by
  rw [named_inv, Ideal.ofBits_zero_f32, zero_sub]
  show _ = Ideal.div (-x) (Ideal.ofBits .f32 0x3EA3D70A#32)
  rw [ofBits_bw, Ideal.div_coe (by norm_num : (5368709 / 16777216 : ℝ) ≠ 0)]
  congr 2
  norm_num

/-! ## Putting a lane coordinate back -/

/-- The reduced index `r` with lane `k` put back is `(r, k)`. -/
theorem lift_lane (h : S64x1024.Reduces [(1 : Fin S64x1024.rank)] S64) (r : Fin 64) (k : Fin (S64x1024.size 1)) :
    h.lift (ix1 r) k = ix2 r (⟨k.val, k.isLt⟩ : Fin 1024) := by
  funext c; apply Fin.ext
  fin_cases c <;> rfl

/-! ## The payloads, one at a time, at an index -/

/-- The squared norms of the tile's rows of `x0`, as the body forms them: a row of ones against `x0 ∘ x0`. -/
theorem x0norm_apply (x0b : FVec Ideal S1024x512 .f32) (u : Fin 1) (j : Fin 1024) :
    k0_pay15 (F := Ideal) x0b (ix2 u j) = ∑ k : Fin 512, x0b (ix2 j k) * x0b (ix2 j k) := by
  unfold k0_pay15 k0_pay14 k0_pay10
  refine (KMatmul.rownorm_apply _ _ u j).trans ?_
  refine Finset.sum_congr rfl fun k _ => ?_
  show Ideal.ofBits .f32 0x3F800000#32 * (shapeCast S1024x512 x0b shapeCasts_S1024x512_S1024x512 (ix2 j k) * shapeCast S1024x512 x0b shapeCasts_S1024x512_S1024x512 (ix2 j k)) = _
  rw [shapeCast_self, Cert.LibEReal.ofBits_one, one_mul]

/-- The two score products of the step. -/
theorem zx1_apply (zb : FVec Ideal S64x512 .f32) (x1b : FVec Ideal S1024x512 .f32) (r : Fin 64) (j : Fin 1024) :
    k0_pay12 (F := Ideal) zb x1b (ix2 r j) = ∑ k : Fin 512, zb (ix2 r k) * x1b (ix2 j k) := by
  unfold k0_pay12 k0_pay11
  rw [shapeCast_self]
  exact KMatmul.scores_apply zb x1b r j

theorem zx0_apply (zb : FVec Ideal S64x512 .f32) (x0b : FVec Ideal S1024x512 .f32) (r : Fin 64) (j : Fin 1024) :
    k0_pay13 (F := Ideal) zb x0b (ix2 r j) = ∑ k : Fin 512, zb (ix2 r k) * x0b (ix2 j k) := by
  unfold k0_pay13 k0_pay10
  rw [shapeCast_self]
  exact KMatmul.scores_apply zb x0b r j

/-- The first two terms of the interpolated point's squared norm: `t²·‖x1‖² + 2·t·(1 - t)·⟨x1, x0⟩`. -/
theorem xt2head_apply (ab bb : FVec Ideal S64x1 .f32) (x0b x1b : FVec Ideal S1024x512 .f32) (r : Fin 64) (j : Fin 1024) :
    k0_pay16 (F := Ideal) ab bb x0b x1b (ix2 r j)
      = ab (ix2 r 0) * ab (ix2 r 0) * (∑ k : Fin 512, x1b (ix2 j k) * x1b (ix2 j k))
        + NW.twoW * ab (ix2 r 0) * bb (ix2 r 0) * (∑ k : Fin 512, x1b (ix2 j k) * x0b (ix2 j k)) := by
  unfold k0_pay16 k0_pay14 k0_pay11 k0_pay10 k0_pay7 k0_pay8
  simp only [shapeCast_self]
  show broadcastTo S64x1024 (mulf ab ab) broadcasts_S64x1_S64x1024 (ix2 r j)
        * broadcastTo S64x1024 (matmul dot_S1x512_S1024x512_S1x1024_1_1_0_0_n_n (some .fp32) (broadcast S1x512 (Scalar.ofBits .f32 0x3F800000#32)) (mulf x1b x1b) (constant S1x1024 .f32 0x00000000#32)) broadcasts_S1x1024_S64x1024 (ix2 r j)
      + broadcastTo S64x1024 (mulf (mulf (broadcast S64x1 (Scalar.ofBits .f32 0x40000000#32)) ab) bb) broadcasts_S64x1_S64x1024 (ix2 r j)
        * broadcastTo S64x1024 (matmul dot_S1x512_S1024x512_S1x1024_1_1_0_0_n_n (some .fp32) (broadcast S1x512 (Scalar.ofBits .f32 0x3F800000#32)) (mulf x1b x0b) (constant S1x1024 .f32 0x00000000#32)) broadcasts_S1x1024_S64x1024 (ix2 r j) = _
  rw [Cert.LibKeepdims.broadcastTo_a1_ab_apply, Cert.LibKeepdims.broadcastTo_a1_ab_apply, broadcastTo_1b_ab_apply, broadcastTo_1b_ab_apply,
    KMatmul.rownorm_apply, KMatmul.rownorm_apply]
  have e1 : ∀ (x y : FVec Ideal S1024x512 .f32), (∑ k : Fin 512, (broadcast S1x512 (Scalar.ofBits (F := Ideal) .f32 0x3F800000#32) : FVec Ideal S1x512 .f32) (ix2 (0 : Fin 1) k) * (mulf x y : FVec Ideal S1024x512 .f32) (ix2 j k))
      = ∑ k : Fin 512, x (ix2 j k) * y (ix2 j k) := fun x y => Finset.sum_congr rfl fun k _ => by
    show Ideal.ofBits .f32 0x3F800000#32 * (x (ix2 j k) * y (ix2 j k)) = _
    rw [Cert.LibEReal.ofBits_one, one_mul]
  rw [e1, e1]
  rfl

/-- The column `(1 - t)²`, spread along the tile. -/
theorem bb2_apply (bb : FVec Ideal S64x1 .f32) (r : Fin 64) (j : Fin 1024) :
    k0_pay17 (F := Ideal) bb (ix2 r j) = bb (ix2 r 0) * bb (ix2 r 0) := by
  unfold k0_pay17 k0_pay8
  simp only [shapeCast_self]
  rw [Cert.LibKeepdims.broadcastTo_a1_ab_apply]
  rfl

/-- The logit payload from its operands at an index. -/
theorem pay18_apply (v5 v7 v9 : FVec Ideal S64x1 .f32) (v14 v15 : FVec Ideal S64x1024 .f32) (v20 : FVec Ideal S1x1024 .f32)
    (v33 v35 : FVec Ideal S64x1024 .f32) (r : Fin 64) (j : Fin 1024) :
    k0_pay18 (F := Ideal) v5 v7 v9 v14 v15 v20 v33 v35 (ix2 r j)
      = (Ideal.ofBits .f32 0x00000000#32
          - (v9 (ix2 r 0) - NW.twoW * (v5 (ix2 r 0) * v14 (ix2 r j) + v7 (ix2 r 0) * v15 (ix2 r j))
              + (v33 (ix2 r j) + v35 (ix2 r j) * v20 (ix2 (0 : Fin 1) j))))
        * Named.named (F := Ideal) κ "inv_2bw2" (φ := .f32) 0x40480000#32 := by
  unfold k0_pay18
  show (Ideal.ofBits .f32 0x00000000#32
          - (broadcastTo S64x1024 v9 broadcasts_S64x1_S64x1024 (ix2 r j)
              - Ideal.ofBits .f32 0x40000000#32 * (broadcastTo S64x1024 v5 broadcasts_S64x1_S64x1024 (ix2 r j) * v14 (ix2 r j) + broadcastTo S64x1024 v7 broadcasts_S64x1_S64x1024 (ix2 r j) * v15 (ix2 r j))
              + (v33 (ix2 r j) + v35 (ix2 r j) * broadcastTo S64x1024 v20 broadcasts_S1x1024_S64x1024 (ix2 r j))))
        * Named.named (F := Ideal) κ "inv_2bw2" (φ := .f32) 0x40480000#32 = _
  rw [Cert.LibKeepdims.broadcastTo_a1_ab_apply, Cert.LibKeepdims.broadcastTo_a1_ab_apply, Cert.LibKeepdims.broadcastTo_a1_ab_apply, broadcastTo_1b_ab_apply]

/-- The running maximum's update: the old maximum against the largest logit of the tile. -/
theorem pay19_apply (v5 v7 v9 : FVec Ideal S64x1 .f32) (v14 v15 : FVec Ideal S64x1024 .f32) (v20 : FVec Ideal S1x1024 .f32)
    (v33 v35 : FVec Ideal S64x1024 .f32) (mo : FVec Ideal S64x1 .f32) (r : Fin 64) (u : Fin 1) :
    k0_pay19 (F := Ideal) v5 v7 v9 v14 v15 v20 v33 v35 mo (ix2 r u)
      = max (mo (ix2 r u)) (NW.maxLogit 1024 fun j => k0_pay18 (F := Ideal) v5 v7 v9 v14 v15 v20 v33 v35 (ix2 r j)) := by
  unfold k0_pay19
  show max (mo (ix2 r u)) (shapeCast S64x1 (multiReduction .maximumf [1] S64 (k0_pay18 (F := Ideal) v5 v7 v9 v14 v15 v20 v33 v35) 0xFF800000#32 reduces_S64x1024_S64 (.inl rfl) rfl) shapeCasts_S64_S64x1 (ix2 r u)) = _
  rw [Cert.LibKeepdims.shapeCast_a_a1_apply]
  refine congrArg (max (mo (ix2 r u))) ?_
  refine (Ideal.multiReduction_maximumf_single (a := 1) (k0_pay18 (F := Ideal) v5 v7 v9 v14 v15 v20 v33 v35) 0xFF800000#32 reduces_S64x1024_S64 (.inl rfl) rfl (ix1 r)).trans ?_
  show Finset.fold max (Ideal.ofBits .f32 0xFF800000#32) (k0_pay18 (F := Ideal) v5 v7 v9 v14 v15 v20 v33 v35 ∘ reduces_S64x1024_S64.lift (ix1 r)) (Finset.univ : Finset (Fin 1024)) = _
  rw [ofBits_ninf]
  unfold NW.maxLogit
  exact congrArg (fun f => Finset.fold max (⊥ : EReal) f (Finset.univ : Finset (Fin 1024)))
    (funext fun k => congrArg (k0_pay18 (F := Ideal) v5 v7 v9 v14 v15 v20 v33 v35) (lift_lane reduces_S64x1024_S64 r k))

/-- The rescaling factor of the old sums: `exp (old maximum - new maximum)`. -/
theorem pay20_apply (v5 v7 v9 : FVec Ideal S64x1 .f32) (v14 v15 : FVec Ideal S64x1024 .f32) (v20 : FVec Ideal S1x1024 .f32)
    (v33 v35 : FVec Ideal S64x1024 .f32) (mo mo' : FVec Ideal S64x1 .f32) (r : Fin 64) (u : Fin 1) :
    k0_pay20 (F := Ideal) v5 v7 v9 v14 v15 v20 v33 v35 mo mo' (ix2 r u)
      = Ideal.exp (mo' (ix2 r u) - k0_pay19 (F := Ideal) v5 v7 v9 v14 v15 v20 v33 v35 mo (ix2 r u)) := rfl

/-- The tile's weights: `exp (logit - new maximum)`. -/
theorem pay21_apply (v5 v7 v9 : FVec Ideal S64x1 .f32) (v14 v15 : FVec Ideal S64x1024 .f32) (v20 : FVec Ideal S1x1024 .f32)
    (v33 v35 : FVec Ideal S64x1024 .f32) (mo : FVec Ideal S64x1 .f32) (r : Fin 64) (j : Fin 1024) :
    k0_pay21 (F := Ideal) v5 v7 v9 v14 v15 v20 v33 v35 mo (ix2 r j)
      = Ideal.exp (k0_pay18 (F := Ideal) v5 v7 v9 v14 v15 v20 v33 v35 (ix2 r j) - k0_pay19 (F := Ideal) v5 v7 v9 v14 v15 v20 v33 v35 mo (ix2 r 0)) := by
  unfold k0_pay21
  show Ideal.exp (k0_pay18 (F := Ideal) v5 v7 v9 v14 v15 v20 v33 v35 (ix2 r j)
      - broadcastTo S64x1024 (k0_pay19 (F := Ideal) v5 v7 v9 v14 v15 v20 v33 v35 mo) broadcasts_S64x1_S64x1024 (ix2 r j)) = _
  rw [Cert.LibKeepdims.broadcastTo_a1_ab_apply]

/-- The running sum's update. -/
theorem pay22_apply (v5 v7 v9 : FVec Ideal S64x1 .f32) (v14 v15 : FVec Ideal S64x1024 .f32) (v20 : FVec Ideal S1x1024 .f32)
    (v33 v35 : FVec Ideal S64x1024 .f32) (mo mo' lo : FVec Ideal S64x1 .f32) (r : Fin 64) (u : Fin 1) :
    k0_pay22 (F := Ideal) v5 v7 v9 v14 v15 v20 v33 v35 mo mo' lo (ix2 r u)
      = k0_pay20 (F := Ideal) v5 v7 v9 v14 v15 v20 v33 v35 mo mo' (ix2 r u) * lo (ix2 r u)
        + ∑ j : Fin 1024, k0_pay21 (F := Ideal) v5 v7 v9 v14 v15 v20 v33 v35 mo (ix2 r j) := by
  unfold k0_pay22
  simp only [shapeCast_self]
  show k0_pay20 (F := Ideal) v5 v7 v9 v14 v15 v20 v33 v35 mo mo' (ix2 r u) * lo (ix2 r u)
      + shapeCast S64x1 (multiReduction .add [1] S64 (k0_pay21 (F := Ideal) v5 v7 v9 v14 v15 v20 v33 v35 mo) 0x00000000#32 reduces_S64x1024_S64 (.inl rfl) rfl) shapeCasts_S64_S64x1 (ix2 r u) = _
  rw [Cert.LibKeepdims.shapeCast_a_a1_apply]
  refine congrArg (k0_pay20 (F := Ideal) v5 v7 v9 v14 v15 v20 v33 v35 mo mo' (ix2 r u) * lo (ix2 r u) + ·) ?_
  refine (Ideal.multiReduction_add_single (a := 1) (k0_pay21 (F := Ideal) v5 v7 v9 v14 v15 v20 v33 v35 mo) 0x00000000#32 reduces_S64x1024_S64 (.inl rfl) rfl (ix1 r)).trans ?_
  show ∑ k : Fin 1024, k0_pay21 (F := Ideal) v5 v7 v9 v14 v15 v20 v33 v35 mo (reduces_S64x1024_S64.lift (ix1 r) k) = _
  exact Finset.sum_congr rfl fun k _ => congrArg (k0_pay21 (F := Ideal) v5 v7 v9 v14 v15 v20 v33 v35 mo) (lift_lane reduces_S64x1024_S64 r k)

/-- The running weighted sum's update. -/
theorem pay23_apply (v5 v7 v9 : FVec Ideal S64x1 .f32) (v11 v13 : FVec Ideal S1024x512 .f32) (v14 v15 : FVec Ideal S64x1024 .f32) (v20 : FVec Ideal S1x1024 .f32)
    (v33 v35 : FVec Ideal S64x1024 .f32) (mo mo' : FVec Ideal S64x1 .f32) (ao : FVec Ideal S64x512 .f32) (r : Fin 64) (d : Fin 512) :
    k0_pay23 (F := Ideal) v5 v7 v9 v11 v13 v14 v15 v20 v33 v35 mo mo' ao (ix2 r d)
      = k0_pay20 (F := Ideal) v5 v7 v9 v14 v15 v20 v33 v35 mo mo' (ix2 r 0) * ao (ix2 r d)
        + ∑ j : Fin 1024, k0_pay21 (F := Ideal) v5 v7 v9 v14 v15 v20 v33 v35 mo (ix2 r j) * (v13 (ix2 j d) - v11 (ix2 j d)) := by
  unfold k0_pay23
  show broadcastTo S64x512 (k0_pay20 (F := Ideal) v5 v7 v9 v14 v15 v20 v33 v35 mo mo') broadcasts_S64x1_S64x512 (ix2 r d) * ao (ix2 r d)
      + matmul dot_S64x1024_S1024x512_S64x512_1_0_0_1_n_n none (truncf .bf16 (k0_pay21 (F := Ideal) v5 v7 v9 v14 v15 v20 v33 v35 mo) bitsLt_bf16_f32) (truncf .bf16 (subf v13 v11) bitsLt_bf16_f32) (constant S64x512 .f32 0x00000000#32) (ix2 r d) = _
  rw [Cert.LibKeepdims.broadcastTo_a1_ab_apply, KMatmul.weighted_apply]
  rfl

/-- The final quotient. -/
theorem pay3_apply (acc : FVec Ideal S64x512 .f32) (l : FVec Ideal S64x1 .f32) (r : Fin 64) (d : Fin 512) :
    k0_pay3 (F := Ideal) acc l (ix2 r d) = Ideal.div (acc (ix2 r d)) (l (ix2 r 0)) := by
  unfold k0_pay3
  show Ideal.div (acc (ix2 r d)) (broadcastTo S64x512 l broadcasts_S64x1_S64x512 (ix2 r d)) = _
  rw [Cert.LibKeepdims.broadcastTo_a1_ab_apply]

/-! ## One step, at an index -/

section step

open KStep

variable (zb : FVec Ideal S64x512 .f32) (ab bb z2b : FVec Ideal S64x1 .f32) (x0b x1b : FVec Ideal S1024x512 .f32)

/-- The logit of query row `r` of the block against sample row `j` of the tile, in the blocks' entries. -/
def blockLogit (r : Fin 64) (j : Fin 1024) : EReal :=
  Ideal.div (-(z2b (ix2 r 0)
      - NW.twoW * (ab (ix2 r 0) * (∑ k : Fin 512, zb (ix2 r k) * x1b (ix2 j k)) + bb (ix2 r 0) * (∑ k : Fin 512, zb (ix2 r k) * x0b (ix2 j k)))
      + (ab (ix2 r 0) * ab (ix2 r 0) * (∑ k : Fin 512, x1b (ix2 j k) * x1b (ix2 j k))
          + NW.twoW * ab (ix2 r 0) * bb (ix2 r 0) * (∑ k : Fin 512, x1b (ix2 j k) * x0b (ix2 j k))
          + bb (ix2 r 0) * bb (ix2 r 0) * (∑ k : Fin 512, x0b (ix2 j k) * x0b (ix2 j k))))) NW.bwW

theorem tileLogit_apply (r : Fin 64) (j : Fin 1024) :
    tileLogit (F := Ideal) zb ab bb z2b x0b x1b (ix2 r j) = blockLogit zb ab bb z2b x0b x1b r j := by
  unfold tileLogit
  rw [pay18_apply, scale_eq, zx1_apply, zx0_apply, x0norm_apply, xt2head_apply, bb2_apply]
  unfold k0_pay7 k0_pay8 k0_pay9 blockLogit
  simp only [shapeCast_self]

/-- The new running maximum of row `r`. -/
theorem stepM_apply (mo : FVec Ideal S64x1 .f32) (r : Fin 64) (u : Fin 1) :
    stepM (F := Ideal) zb ab bb z2b x0b x1b mo (ix2 r u)
      = max (mo (ix2 r u)) (NW.maxLogit 1024 fun j => blockLogit zb ab bb z2b x0b x1b r j) := by
  unfold stepM k0_pay2
  rw [shapeCast_self, pay19_apply]
  exact congrArg (fun f => max (mo (ix2 r u)) (NW.maxLogit 1024 f)) (funext fun j => tileLogit_apply zb ab bb z2b x0b x1b r j)

/-- The new running sum of row `r`. -/
theorem stepL_apply (mo lo : FVec Ideal S64x1 .f32) (r : Fin 64) :
    stepL (F := Ideal) zb ab bb z2b x0b x1b mo lo (ix2 r 0)
      = Ideal.exp (mo (ix2 r 0) - max (mo (ix2 r 0)) (NW.maxLogit 1024 fun j => blockLogit zb ab bb z2b x0b x1b r j)) * lo (ix2 r 0)
        + ∑ j : Fin 1024, Ideal.exp (blockLogit zb ab bb z2b x0b x1b r j
            - max (mo (ix2 r 0)) (NW.maxLogit 1024 fun j => blockLogit zb ab bb z2b x0b x1b r j)) := by
  have hM := stepM_apply zb ab bb z2b x0b x1b mo r 0
  unfold stepM k0_pay2 at hM
  rw [shapeCast_self] at hM
  unfold stepL
  rw [pay22_apply, pay20_apply, hM]
  refine congrArg₂ (fun a b : EReal => a + b) rfl ?_
  refine Finset.sum_congr rfl fun j _ => ?_
  rw [pay21_apply, hM]
  exact congrArg (fun x => Ideal.exp (x - _)) (tileLogit_apply zb ab bb z2b x0b x1b r j)

/-- The new running weighted sum of row `r` at column `d`. -/
theorem stepA_apply (mo : FVec Ideal S64x1 .f32) (ao : FVec Ideal S64x512 .f32) (r : Fin 64) (d : Fin 512) :
    stepA (F := Ideal) zb ab bb z2b x0b x1b mo ao (ix2 r d)
      = Ideal.exp (mo (ix2 r 0) - max (mo (ix2 r 0)) (NW.maxLogit 1024 fun j => blockLogit zb ab bb z2b x0b x1b r j)) * ao (ix2 r d)
        + ∑ j : Fin 1024, Ideal.exp (blockLogit zb ab bb z2b x0b x1b r j
            - max (mo (ix2 r 0)) (NW.maxLogit 1024 fun j => blockLogit zb ab bb z2b x0b x1b r j)) * (x1b (ix2 j d) - x0b (ix2 j d)) := by
  have hM := stepM_apply zb ab bb z2b x0b x1b mo r 0
  unfold stepM k0_pay2 at hM
  rw [shapeCast_self] at hM
  unfold stepA k0_pay1
  rw [shapeCast_self, pay23_apply, pay20_apply, hM]
  refine congrArg₂ (fun a b : EReal => a + b) rfl ?_
  refine Finset.sum_congr rfl fun j _ => ?_
  rw [pay21_apply, hM]
  unfold k0_pay10 k0_pay11
  rw [shapeCast_self, shapeCast_self]
  exact congrArg (fun x => Ideal.exp (x - _) * _) (tileLogit_apply zb ab bb z2b x0b x1b r j)

/-- The result the last step writes. -/
theorem quotient_apply (acc : FVec Ideal S64x512 .f32) (l : FVec Ideal S64x1 .f32) (r : Fin 64) (d : Fin 512) :
    quotient (F := Ideal) acc l (ix2 r d) = Ideal.div (acc (ix2 r d)) (l (ix2 r 0)) := pay3_apply acc l r d

/-- The state the first step starts from: `-∞`, `0`, `0`. -/
theorem m0_apply (r : Fin 64) (u : Fin 1) : m0 (F := Ideal) (ix2 r u) = (⊥ : EReal) := by
  unfold m0 k0_pay4
  rw [shapeCast_self]
  exact ofBits_ninf

theorem l0_apply (r : Fin 64) (u : Fin 1) : l0 (F := Ideal) (ix2 r u) = (0 : EReal) := by
  unfold l0 k0_pay5
  rw [shapeCast_self]
  exact Ideal.ofBits_zero_f32

theorem a0_apply (r : Fin 64) (d : Fin 512) : a0 (F := Ideal) (ix2 r d) = (0 : EReal) := by
  unfold a0 k0_pay6
  rw [shapeCast_self]
  exact Ideal.ofBits_zero_f32

end step

end Cert.NW.KTile

end
-- ==== Proof.KPieces.lean ====
/-
  What each control case of the kernel body leaves in its carried scratch buffers and in the output's staging
  buffer, as the step functions of the blocks.

  The body has three cases. The first step of a row block resets the carried state to (-∞, 0, 0) and then runs the
  step over it; a middle step runs the step over the state the step before left; the last step runs the step and
  then writes the quotient of the weighted sum by the sum.
-/
import proofs.«172330_j34153579937939_2_alg».proof.Proof.Gen.KernelIdeal.Frame
import proofs.«172330_j34153579937939_2_alg».proof.Proof.KStep
import Idealize.ShloMosaic.Lib.Pipeline.Value
import Idealize.ShloMosaic.Lib.Tactic

noncomputable section

set_option maxRecDepth 16384

namespace Cert.NW.KPieces

open Cert.KernelIdeal Cert.KernelIdeal.Gen Idealize.ShloMosaic Idealize.ShloMosaic.TcCoe Idealize.SL.Sem Idealize.ShloMosaic.Tactic

variable {F : FTy → Type} [FloatOps F] [Named F]

theorem hz : (![0, 0] : Fin 2 → Nat) = fun _ => 0 := funext fun a => by fin_cases a <;> rfl

/-- What a step of case B leaves in the scratch carrying the running maximum. -/
theorem scratch0_B (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : ¬cond0_0 i) (hc1 : ¬cond0_1 i) (x0 : Vec F S64x512 .f32) (x1 : Vec F S64x1 .f32) (x2 : Vec F S64x1 .f32) (x3 : Vec F S64x1 .f32) (x4 : Vec F S1024x512 .f32) (x5 : Vec F S1024x512 .f32) (xs0 : Vec F S64x1 .f32) (xs1 : Vec F S64x1 .f32) (xs2 : Vec F S64x512 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = KStep.stepM x0 x1 x2 x3 x4 x5 xs0 := by
  unfold KStep.stepM
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case B leaves in the scratch carrying the running sum. -/
theorem scratch1_B (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : ¬cond0_0 i) (hc1 : ¬cond0_1 i) (x0 : Vec F S64x512 .f32) (x1 : Vec F S64x1 .f32) (x2 : Vec F S64x1 .f32) (x3 : Vec F S64x1 .f32) (x4 : Vec F S1024x512 .f32) (x5 : Vec F S1024x512 .f32) (xs0 : Vec F S64x1 .f32) (xs1 : Vec F S64x1 .f32) (xs2 : Vec F S64x512 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = KStep.stepL x0 x1 x2 x3 x4 x5 xs0 xs1 := by
  unfold KStep.stepL
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case B leaves in the scratch carrying the running weighted sum. -/
theorem scratch2_B (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : ¬cond0_0 i) (hc1 : ¬cond0_1 i) (x0 : Vec F S64x512 .f32) (x1 : Vec F S64x1 .f32) (x2 : Vec F S64x1 .f32) (x3 : Vec F S64x1 .f32) (x4 : Vec F S1024x512 .f32) (x5 : Vec F S1024x512 .f32) (xs0 : Vec F S64x1 .f32) (xs1 : Vec F S64x1 .f32) (xs2 : Vec F S64x512 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = KStep.stepA x0 x1 x2 x3 x4 x5 xs0 xs2 := by
  unfold KStep.stepA
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case C leaves in the scratch carrying the running maximum. -/
theorem scratch0_C (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : ¬cond0_0 i) (hc1 : cond0_1 i) (x0 : Vec F S64x512 .f32) (x1 : Vec F S64x1 .f32) (x2 : Vec F S64x1 .f32) (x3 : Vec F S64x1 .f32) (x4 : Vec F S1024x512 .f32) (x5 : Vec F S1024x512 .f32) (xs0 : Vec F S64x1 .f32) (xs1 : Vec F S64x1 .f32) (xs2 : Vec F S64x512 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = KStep.stepM x0 x1 x2 x3 x4 x5 xs0 := by
  unfold KStep.stepM
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case C leaves in the scratch carrying the running sum. -/
theorem scratch1_C (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : ¬cond0_0 i) (hc1 : cond0_1 i) (x0 : Vec F S64x512 .f32) (x1 : Vec F S64x1 .f32) (x2 : Vec F S64x1 .f32) (x3 : Vec F S64x1 .f32) (x4 : Vec F S1024x512 .f32) (x5 : Vec F S1024x512 .f32) (xs0 : Vec F S64x1 .f32) (xs1 : Vec F S64x1 .f32) (xs2 : Vec F S64x512 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = KStep.stepL x0 x1 x2 x3 x4 x5 xs0 xs1 := by
  unfold KStep.stepL
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case C leaves in the scratch carrying the running weighted sum. -/
theorem scratch2_C (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : ¬cond0_0 i) (hc1 : cond0_1 i) (x0 : Vec F S64x512 .f32) (x1 : Vec F S64x1 .f32) (x2 : Vec F S64x1 .f32) (x3 : Vec F S64x1 .f32) (x4 : Vec F S1024x512 .f32) (x5 : Vec F S1024x512 .f32) (xs0 : Vec F S64x1 .f32) (xs1 : Vec F S64x1 .f32) (xs2 : Vec F S64x512 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = KStep.stepA x0 x1 x2 x3 x4 x5 xs0 xs2 := by
  unfold KStep.stepA
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What the last step of a row block leaves in the output's staging buffer: the weighted sum over the sum. -/
theorem out_C (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : ¬cond0_0 i) (hc1 : cond0_1 i) (x0 : Vec F S64x512 .f32) (x1 : Vec F S64x1 .f32) (x2 : Vec F S64x1 .f32) (x3 : Vec F S64x1 .f32) (x4 : Vec F S1024x512 .f32) (x5 : Vec F S1024x512 .f32) (xs0 : Vec F S64x1 .f32) (xs1 : Vec F S64x1 .f32) (xs2 : Vec F S64x512 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = KStep.quotient (KStep.stepA x0 x1 x2 x3 x4 x5 xs0 xs2) (KStep.stepL x0 x1 x2 x3 x4 x5 xs0 xs1) := by
  unfold KStep.quotient KStep.stepA KStep.stepL
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case A leaves in the scratch carrying the running maximum (the first step of a row block: over the reset state). -/
theorem scratch0_A (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : cond0_0 i) (hc1 : ¬cond0_1 i) (x0 : Vec F S64x512 .f32) (x1 : Vec F S64x1 .f32) (x2 : Vec F S64x1 .f32) (x3 : Vec F S64x1 .f32) (x4 : Vec F S1024x512 .f32) (x5 : Vec F S1024x512 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = KStep.stepM x0 x1 x2 x3 x4 x5 KStep.m0 := by
  unfold KStep.stepM KStep.m0
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S64x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case A leaves in the scratch carrying the running sum (the first step of a row block: over the reset state). -/
theorem scratch1_A (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : cond0_0 i) (hc1 : ¬cond0_1 i) (x0 : Vec F S64x512 .f32) (x1 : Vec F S64x1 .f32) (x2 : Vec F S64x1 .f32) (x3 : Vec F S64x1 .f32) (x4 : Vec F S1024x512 .f32) (x5 : Vec F S1024x512 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = KStep.stepL x0 x1 x2 x3 x4 x5 KStep.m0 KStep.l0 := by
  unfold KStep.stepL KStep.m0 KStep.l0
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S64x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

/-- What a step of case A leaves in the scratch carrying the running weighted sum (the first step of a row block: over the reset state). -/
theorem scratch2_A (c : Dev nD) (i : grid0.Coords) (arg2 : Memref sig .tc .vmem S64x512 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S64x512 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x512 .f32) (harg11 : arg11.IsWhole) (hc0 : cond0_0 i) (hc1 : ¬cond0_1 i) (x0 : Vec F S64x512 .f32) (x1 : Vec F S64x1 .f32) (x2 : Vec F S64x1 .f32) (x3 : Vec F S64x1 .f32) (x4 : Vec F S1024x512 .f32) (x5 : Vec F S1024x512 .f32) :
    sout0_A_2 c i arg2 harg2 arg3 harg3 arg4 harg4 arg5 harg5 arg6 harg6 arg7 harg7 arg8 harg8 arg9 harg9 arg10 harg10 arg11 harg11 hc0 hc1 x0 x1 x2 x3 x4 x5 = KStep.stepA x0 x1 x2 x3 x4 x5 KStep.m0 KStep.a0 := by
  unfold KStep.stepA KStep.m0 KStep.a0
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S64x512) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz, View.ld_unit_zero (S := S64x512) hz, View.ld_unit_zero (S := S1024x512) hz, View.readCov_unit_zero (S := S64x1) _ hz, View.readCov_unit_zero (S := S64x512) _ hz]

end Cert.NW.KPieces

end
-- ==== Proof.KBlocks.lean ====
/-
  The kernel's windows read at coordinates.

  The kernel runs on a grid of eight points: point t works on the row block t / 4 (rows 64·(t / 4) … + 63 of the
  queries) and on the sample tile t % 4 (samples 1024·(t % 4) … + 1023 of the two sampled tables). Each input window's
  block at point t, read at a coordinate inside the block, is the window's array at the corresponding global
  coordinate; the output window's blocks at the last point of each row block cover the result array.
-/
import proofs.«172330_j34153579937939_2_alg».proof.Proof.Gen.KernelIdeal.Frame
import Idealize.ShloMosaic.Lib.Pipeline.Value
import Idealize.ShloMosaic.Lib.ValueIdx

noncomputable section

namespace Cert.NW.KBlocks

open Cert.KernelIdeal Cert.KernelIdeal.Gen Idealize.ShloMosaic Idealize.ShloMosaic.TcCoe Idealize.ShloMosaic.ValueIdx
open Idealize.ShloMosaic.Pipeline (Dat)

variable {F : FTy → Type} [FloatOps F] [Named F]
variable (m : (ℓ : Loc nD τ sig) → Buf (Elt F) ℓ)

/-! ## Rows and samples of a grid point -/

theorem point_lt (t : Fin cfg0.N) : t.val < 8 := lt_of_lt_of_eq t.isLt (show cfg0.N = 8 from N_0)

/-- The global query row of row r of point t's row block. -/
def rowOf (t : Fin cfg0.N) (r : Fin 64) : Fin 128 :=
  ⟨64 * (t.val / 4) + r.val, by have := point_lt t; have := r.isLt; omega⟩

/-- The global sample of sample j of point t's tile. -/
def sampleOf (t : Fin cfg0.N) (j : Fin 1024) : Fin 4096 :=
  ⟨1024 * (t.val % 4) + j.val, by have := point_lt t; have := j.isLt; omega⟩

theorem rowOf_val (t : Fin cfg0.N) (r : Fin 64) : (rowOf t r).val = 64 * (t.val / 4) + r.val := rfl
theorem sampleOf_val (t : Fin cfg0.N) (j : Fin 1024) : (sampleOf t j).val = 1024 * (t.val % 4) + j.val := rfl

/-- The printed index maps, decided once over the grid: the query-side windows and the output follow the row block,
    the two table windows follow the tile. -/
theorem idx_facts : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = t.val % 4 ∧ win0_4.index t (1 : Fin 2) = 0
    ∧ win0_5.index t (0 : Fin 2) = t.val % 4 ∧ win0_5.index t (1 : Fin 2) = 0
    ∧ win0_6.index t (0 : Fin 2) = t.val / 4 ∧ win0_6.index t (1 : Fin 2) = 0 :=
  (by decide +kernel : ∀ t : Fin grid0.N, _)

/-! ## A whole-array function read through a window's block -/

/-- Window 0 (the queries, blocks of 64 rows). -/
theorem blk0_read (t : Fin cfg0.N) (g : S128x512.Idx → Elt F .f32) (r : Fin 64) (k : Fin 512) :
    (((cfg0.win 0).blk t).view.read (Elt F) g : Vec F S64x512 .f32) (ix2 r k) = g (ix2 (rowOf t r) k) := by
  obtain ⟨e0, e1, -⟩ := idx_facts t
  rw [View.read_apply]
  refine congrArg g (funext fun a => Fin.ext ?_)
  match a with
  | ⟨0, _⟩ => show win0_0.index t (0 : Fin 2) * 64 + 1 * r.val = 64 * (t.val / 4) + r.val; rw [e0]; omega
  | ⟨1, _⟩ => show win0_0.index t (1 : Fin 2) * 512 + 1 * k.val = k.val; rw [e1]; omega

/-- Window 1 (the times as a column). -/
theorem blk1_read (t : Fin cfg0.N) (g : S128x1.Idx → Elt F .f32) (r : Fin 64) (u : Fin 1) :
    (((cfg0.win 1).blk t).view.read (Elt F) g : Vec F S64x1 .f32) (ix2 r u) = g (ix2 (rowOf t r) u) := by
  obtain ⟨-, -, e0, e1, -⟩ := idx_facts t
  rw [View.read_apply]
  refine congrArg g (funext fun a => Fin.ext ?_)
  match a with
  | ⟨0, _⟩ => show win0_1.index t (0 : Fin 2) * 64 + 1 * r.val = 64 * (t.val / 4) + r.val; rw [e0]; omega
  | ⟨1, _⟩ => show win0_1.index t (1 : Fin 2) * 1 + 1 * u.val = u.val; rw [e1]; omega

/-- Window 2 (one minus the times, as a column). -/
theorem blk2_read (t : Fin cfg0.N) (g : S128x1.Idx → Elt F .f32) (r : Fin 64) (u : Fin 1) :
    (((cfg0.win 2).blk t).view.read (Elt F) g : Vec F S64x1 .f32) (ix2 r u) = g (ix2 (rowOf t r) u) := by
  obtain ⟨-, -, -, -, e0, e1, -⟩ := idx_facts t
  rw [View.read_apply]
  refine congrArg g (funext fun a => Fin.ext ?_)
  match a with
  | ⟨0, _⟩ => show win0_2.index t (0 : Fin 2) * 64 + 1 * r.val = 64 * (t.val / 4) + r.val; rw [e0]; omega
  | ⟨1, _⟩ => show win0_2.index t (1 : Fin 2) * 1 + 1 * u.val = u.val; rw [e1]; omega

/-- Window 3 (the queries' squared norms, as a column). -/
theorem blk3_read (t : Fin cfg0.N) (g : S128x1.Idx → Elt F .f32) (r : Fin 64) (u : Fin 1) :
    (((cfg0.win 3).blk t).view.read (Elt F) g : Vec F S64x1 .f32) (ix2 r u) = g (ix2 (rowOf t r) u) := by
  obtain ⟨-, -, -, -, -, -, e0, e1, -⟩ := idx_facts t
  rw [View.read_apply]
  refine congrArg g (funext fun a => Fin.ext ?_)
  match a with
  | ⟨0, _⟩ => show win0_3.index t (0 : Fin 2) * 64 + 1 * r.val = 64 * (t.val / 4) + r.val; rw [e0]; omega
  | ⟨1, _⟩ => show win0_3.index t (1 : Fin 2) * 1 + 1 * u.val = u.val; rw [e1]; omega

/-- Window 4 (the first sampled table, tiles of 1024 samples). -/
theorem blk4_read (t : Fin cfg0.N) (g : S4096x512.Idx → Elt F .f32) (j : Fin 1024) (k : Fin 512) :
    (((cfg0.win 4).blk t).view.read (Elt F) g : Vec F S1024x512 .f32) (ix2 j k) = g (ix2 (sampleOf t j) k) := by
  obtain ⟨-, -, -, -, -, -, -, -, e0, e1, -⟩ := idx_facts t
  rw [View.read_apply]
  refine congrArg g (funext fun a => Fin.ext ?_)
  match a with
  | ⟨0, _⟩ => show win0_4.index t (0 : Fin 2) * 1024 + 1 * j.val = 1024 * (t.val % 4) + j.val; rw [e0]; omega
  | ⟨1, _⟩ => show win0_4.index t (1 : Fin 2) * 512 + 1 * k.val = k.val; rw [e1]; omega

/-- Window 5 (the second sampled table, tiles of 1024 samples). -/
theorem blk5_read (t : Fin cfg0.N) (g : S4096x512.Idx → Elt F .f32) (j : Fin 1024) (k : Fin 512) :
    (((cfg0.win 5).blk t).view.read (Elt F) g : Vec F S1024x512 .f32) (ix2 j k) = g (ix2 (sampleOf t j) k) := by
  obtain ⟨-, -, -, -, -, -, -, -, -, -, e0, e1, -⟩ := idx_facts t
  rw [View.read_apply]
  refine congrArg g (funext fun a => Fin.ext ?_)
  match a with
  | ⟨0, _⟩ => show win0_5.index t (0 : Fin 2) * 1024 + 1 * j.val = 1024 * (t.val % 4) + j.val; rw [e0]; omega
  | ⟨1, _⟩ => show win0_5.index t (1 : Fin 2) * 512 + 1 * k.val = k.val; rw [e1]; omega

/-- Window 6 (the result, blocks of 64 rows). -/
theorem blk6_read (t : Fin cfg0.N) (g : S128x512.Idx → Elt F .f32) (r : Fin 64) (d : Fin 512) :
    (((cfg0.win 6).blk t).view.read (Elt F) g : Vec F S64x512 .f32) (ix2 r d) = g (ix2 (rowOf t r) d) := by
  obtain ⟨-, -, -, -, -, -, -, -, -, -, -, -, e0, e1⟩ := idx_facts t
  rw [View.read_apply]
  refine congrArg g (funext fun a => Fin.ext ?_)
  match a with
  | ⟨0, _⟩ => show win0_6.index t (0 : Fin 2) * 64 + 1 * r.val = 64 * (t.val / 4) + r.val; rw [e0]; omega
  | ⟨1, _⟩ => show win0_6.index t (1 : Fin 2) * 512 + 1 * d.val = d.val; rw [e1]; omega

/-! ## The input windows' blocks at a point -/

theorem iblk0 (c : Dev nD) (t : Fin cfg0.N) (r : Fin 64) (k : Fin 512) :
    (iblk m c 0 t : Vec F S64x512 .f32) (ix2 r k)
      = (V m c main_arg0 : S128x512.Idx → Elt F .f32) (ix2 (rowOf t r) k) := by
  unfold iblk; exact blk0_read t _ r k

theorem iblk1 (c : Dev nD) (t : Fin cfg0.N) (r : Fin 64) (u : Fin 1) :
    (iblk m c 1 t : Vec F S64x1 .f32) (ix2 r u)
      = (V m c main_v14 : S128x1.Idx → Elt F .f32) (ix2 (rowOf t r) u) := by
  unfold iblk; exact blk1_read t _ r u

theorem iblk2 (c : Dev nD) (t : Fin cfg0.N) (r : Fin 64) (u : Fin 1) :
    (iblk m c 2 t : Vec F S64x1 .f32) (ix2 r u)
      = (V m c main_v17 : S128x1.Idx → Elt F .f32) (ix2 (rowOf t r) u) := by
  unfold iblk; exact blk2_read t _ r u

theorem iblk3 (c : Dev nD) (t : Fin cfg0.N) (r : Fin 64) (u : Fin 1) :
    (iblk m c 3 t : Vec F S64x1 .f32) (ix2 r u)
      = (V m c main_v20 : S128x1.Idx → Elt F .f32) (ix2 (rowOf t r) u) := by
  unfold iblk; exact blk3_read t _ r u

theorem iblk4 (c : Dev nD) (t : Fin cfg0.N) (j : Fin 1024) (k : Fin 512) :
    (iblk m c 4 t : Vec F S1024x512 .f32) (ix2 j k)
      = (V m c main_v6 : S4096x512.Idx → Elt F .f32) (ix2 (sampleOf t j) k) := by
  unfold iblk; exact blk4_read t _ j k

theorem iblk5 (c : Dev nD) (t : Fin cfg0.N) (j : Fin 1024) (k : Fin 512) :
    (iblk m c 5 t : Vec F S1024x512 .f32) (ix2 j k)
      = (V m c main_v13 : S4096x512.Idx → Elt F .f32) (ix2 (sampleOf t j) k) := by
  unfold iblk; exact blk5_read t _ j k

/-! ## The output window: membership, the cover, and the write-back read at coordinates -/

/-- An index of the result array is in point t's block iff each coordinate is in the block's range on its axis. -/
theorem mem_blk6 (t : Fin cfg0.N) (i : S128x512.Idx) :
    i ∈ ((cfg0.win 6).blk t).view.set ↔ ∀ a : Fin 2, win0_6.index t a * S64x512.size a ≤ (i a).val
      ∧ (i a).val < win0_6.index t a * S64x512.size a + S64x512.size a := by
  show i ∈ ((View.whole main_v21).slice (win0_6.rect t)).set ↔ _
  rw [View.set_slice_whole, Rect.mem_set_unit]
  exact Iff.rfl

/-- Every index of the result array is in the block of a point that writes back: the last point of its row block. -/
theorem cover6 (i : S128x512.Idx) :
    ∃ t : Fin cfg0.N, (cfg0.win 6).flush t = true ∧ i ∈ ((cfg0.win 6).blk t).view.set := by
  have hi0 : (i 0).val < 128 := (i 0).isLt
  have hi1 : (i 1).val < 512 := (i 1).isLt
  obtain ⟨t, ht⟩ : ∃ t : Fin cfg0.N, t.val = 4 * ((i 0).val / 64) + 3 :=
    ⟨⟨4 * ((i 0).val / 64) + 3, by rw [show cfg0.N = 8 from N_0]; omega⟩, rfl⟩
  obtain ⟨-, -, -, -, -, -, -, -, -, -, -, -, e0, e1⟩ := idx_facts t
  refine ⟨t, (flush0_6 t).mpr (by rw [ht]; omega), ?_⟩
  rw [mem_blk6]
  intro a
  match a with
  | ⟨0, _⟩ =>
    show win0_6.index t (0 : Fin 2) * 64 ≤ (i 0).val ∧ (i 0).val < win0_6.index t (0 : Fin 2) * 64 + 64
    rw [e0, ht]; omega
  | ⟨1, _⟩ =>
    show win0_6.index t (1 : Fin 2) * 512 ≤ (i 1).val ∧ (i 1).val < win0_6.index t (1 : Fin 2) * 512 + 512
    rw [e1]; omega

/-- The output window's blocks never overhang the array: cutting a block to its part inside the array changes nothing. -/
theorem cut6 (t : Fin cfg0.N) (X : Vec F S64x512 .f32) :
    ((cfg0.win 6).cut (grid0.coords t) X : Vec F S64x512 .f32) = X := rfl

/-- What a point writes back, compared with a whole-array function read through its block: it is enough that the
    written block agrees with the function coordinate by coordinate. -/
theorem cut6_eq_read (t : Fin cfg0.N) (X : Vec F S64x512 .f32) (g : S128x512.Idx → Elt F .f32)
    (h : ∀ (r : Fin 64) (d : Fin 512), X (ix2 r d) = g (ix2 (rowOf t r) d)) :
    ((cfg0.win 6).cut (grid0.coords t) X : Vec F S64x512 .f32)
      = (((cfg0.win 6).blk t).view.read (Elt F) g : Vec F S64x512 .f32) := by
  funext y
  obtain ⟨r, d, rfl⟩ : ∃ (r : Fin 64) (d : Fin 512), y = ix2 r d := ⟨y 0, y 1, eq_ix2 y⟩
  exact (h r d).trans (blk6_read t g r d).symm

/-- The result array after the run is a whole-array function g as soon as every point that writes back writes
    block t of g: the blocks of the writing points cover the array. -/
theorem final6 (c : Dev nD) (g : S128x512.Idx → Elt F .f32)
    (hg : ∀ t : Fin cfg0.N, (cfg0.win 6).flush t = true →
      (dats m 0 c).flushed 6 t = ((cfg0.win 6).blk t).view.read (Elt F) g) :
    (dats m 0 c).arrAt 6 cfg0.N = g :=
  (dats m 0 c).arrAt_eq_of_cover 6 g hg cover6

end Cert.NW.KBlocks

end
-- ==== Proof.SpecReal.lean ====
/-
  Finite inputs give finite logits and finite value differences.

  The extended reals that are (coercions of) real numbers are closed under sums, differences, products, negation,
  finite sums and quotients by a nonzero real.  The three float words the specification uses denote the reals `1`,
  `2` and `5368709 / 16777216` (the float nearest `0.32`), the last of them nonzero.  So the squared distance, the
  logit (minus the squared distance over the nonzero bandwidth word) and the difference of the two sampled tables
  are all real whenever the inputs are.
-/
import proofs.«172330_j34153579937939_2_alg».proof.Proof.Spec
import proofs.«172330_j34153579937939_2_alg».proof.Proof.LibERealAlgebra
import Mathlib.Tactic

noncomputable section

namespace Cert.NW

open Idealize.ShloMosaic Idealize.ShloMosaic.ValueIdx
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, Cert.LibEReal.coe_add a b⟩

theorem IsReal.sub {x y : EReal} (hx : IsReal x) (hy : IsReal y) : IsReal (x - y) := by
  obtain ⟨a, rfl⟩ := hx
  obtain ⟨b, rfl⟩ := hy
  exact ⟨a - b, Cert.LibEReal.coe_sub a b⟩

theorem IsReal.mul {x y : EReal} (hx : IsReal x) (hy : IsReal y) : IsReal (x * y) := by
  obtain ⟨a, rfl⟩ := hx
  obtain ⟨b, rfl⟩ := hy
  exact ⟨a * b, Cert.LibEReal.coe_mul a b⟩

theorem IsReal.neg {x : EReal} (hx : IsReal x) : IsReal (-x) := by
  obtain ⟨a, rfl⟩ := hx
  exact ⟨-a, Cert.LibEReal.coe_neg a⟩

/-- A finite sum of reals is real. -/
theorem IsReal.sum {ι : Type*} (s : Finset ι) (f : ι → EReal) (h : ∀ i ∈ s, IsReal (f i)) :
    IsReal (∑ i ∈ s, f i) :=
  Finset.sum_induction f IsReal (fun _ _ hx hy => hx.add hy) IsReal.zero h

/-- The quotient of a real by a nonzero real is real. -/
theorem IsReal.div {x y : EReal} (hx : IsReal x) {b : ℝ} (hb : b ≠ 0) (hy : y = (b : EReal)) :
    IsReal (Ideal.div x y) := by
  obtain ⟨a, rfl⟩ := hx
  subst hy
  exact ⟨a / b, Cert.LibEReal.div_coe' a b hb⟩

/-- The float word `0x3F800000` denotes `1`. -/
theorem oneW_eq : oneW = ((1 : ℝ) : EReal) := by
  rw [oneW, Cert.LibEReal.ofBits_one, EReal.coe_one]

/-- The float word `0x40000000` denotes `2`. -/
theorem twoW_eq : twoW = ((2 : ℝ) : EReal) := by
  simp [Ideal.ofBits, Ideal.ieee, -EReal.coe_mul]; norm_num

/-- The float word `0x3EA3D70A` (the float nearest `0.32`) denotes `10737418 · 2 ^ (-25) = 5368709 / 16777216`. -/
theorem bwW_eq : bwW = ((5368709 / 16777216 : ℝ) : EReal) := by
  simp [Ideal.ofBits, Ideal.ieee, -EReal.coe_mul]; norm_num

variable (Z : (⟨2, ![128, 512]⟩ : Shape).Idx → EReal) (t : (⟨1, ![128]⟩ : Shape).Idx → EReal)
  (X0 X1 : (⟨2, ![4096, 512]⟩ : Shape).Idx → EReal)

/-- The squared distance of finite inputs is finite: it is built from them, `1` and `2` by sums, differences,
    products and finite sums. -/
theorem sqDist_real (hZ : ∀ i, ∃ r : ℝ, Z i = (r : EReal)) (ht : ∀ i, ∃ r : ℝ, t i = (r : EReal))
    (hX0 : ∀ i, ∃ r : ℝ, X0 i = (r : EReal)) (hX1 : ∀ i, ∃ r : ℝ, X1 i = (r : EReal))
    (b : Fin 128) (n : Fin 4096) : IsReal (sqDist Z t X0 X1 b n) := by
  have h1 : IsReal oneW := ⟨1, oneW_eq⟩
  have h2 : IsReal twoW := ⟨2, twoW_eq⟩
  -- an inner product of two finite rows is finite
  have hdot : ∀ f g : Fin 512 → EReal, (∀ d, IsReal (f d)) → (∀ d, IsReal (g d)) →
      IsReal (∑ d : Fin 512, f d * g d) :=
    fun f g hf hg => IsReal.sum _ _ fun d _ => (hf d).mul (hg d)
  have htb : IsReal (t (ix1 b)) := ht _
  have h1t : IsReal (oneW - t (ix1 b)) := h1.sub htb
  have hz : ∀ d : Fin 512, IsReal (Z (ix2 b d)) := fun d => hZ _
  have hx0 : ∀ d : Fin 512, IsReal (X0 (ix2 n d)) := fun d => hX0 _
  have hx1 : ∀ d : Fin 512, IsReal (X1 (ix2 n d)) := fun d => hX1 _
  have hzz := hdot _ _ hz hz
  have hzx1 := hdot _ _ hz hx1
  have hzx0 := hdot _ _ hz hx0
  have hx1x1 := hdot _ _ hx1 hx1
  have hx1x0 := hdot _ _ hx1 hx0
  have hx0x0 := hdot _ _ hx0 hx0
  exact (hzz.sub (h2.mul ((htb.mul hzx1).add (h1t.mul hzx0)))).add
    ((((htb.mul htb).mul hx1x1).add (((h2.mul htb).mul h1t).mul hx1x0)).add ((h1t.mul h1t).mul hx0x0))

/-- The logit of finite inputs is finite: minus the squared distance, over a nonzero real. -/
theorem logit_real (hZ : ∀ i, ∃ r : ℝ, Z i = (r : EReal)) (ht : ∀ i, ∃ r : ℝ, t i = (r : EReal))
    (hX0 : ∀ i, ∃ r : ℝ, X0 i = (r : EReal)) (hX1 : ∀ i, ∃ r : ℝ, X1 i = (r : EReal))
    (b : Fin 128) (n : Fin 4096) : ∃ r : ℝ, logit Z t X0 X1 b n = (r : EReal) := by
  have hs : IsReal (sqDist Z t X0 X1 b n) := sqDist_real Z t X0 X1 hZ ht hX0 hX1 b n
  unfold logit
  exact IsReal.div hs.neg (by norm_num : (5368709 / 16777216 : ℝ) ≠ 0) bwW_eq

/-- The difference of two finite table entries is finite. -/
theorem delta_real (hX0 : ∀ i, ∃ r : ℝ, X0 i = (r : EReal)) (hX1 : ∀ i, ∃ r : ℝ, X1 i = (r : EReal))
    (d : Fin 512) (n : Fin 4096) : ∃ r : ℝ, delta X0 X1 d n = (r : EReal) := by
  unfold delta
  exact IsReal.sub (hX1 _) (hX0 _)

end Cert.NW

end
-- ==== Proof.OnlineSoftmax.lean ====
/-
  The one-pass ("online") evaluation of a softmax-weighted average agrees with the direct one.

  A tile of finitely many (at least one) finite logits has a finite maximum that is attained.  Consuming a tile
  moves the running maximum `μ` to `μ' = max μ ν` (`ν` the tile's maximum) and rescales the running sums by
  `exp (μ - μ')`, because `exp (μ - μ') * exp (ℓ n - μ) = exp (ℓ n - μ')`; before anything is consumed the running
  maximum is `-∞`, `exp (-∞) = 0`, and the (zero) running sums are simply dropped.  At the end the quotient of the
  two running sums is the softmax-weighted average: `(∑ eₙ δₙ) / S = ∑ (eₙ / S) δₙ` with `S = ∑ eₙ > 0`.
-/
import proofs.«172330_j34153579937939_2_alg».proof.Proof.SoftmaxDef
import proofs.«172330_j34153579937939_2_alg».proof.Proof.LibERealAlgebra
import Mathlib.Tactic

noncomputable section

namespace Cert.NW

open Idealize.ShloMosaic
open scoped BigOperators

/-- The largest of finitely many (at least one) finite logits is finite, bounds them all and is attained. -/
theorem maxLogit_coe {T : ℕ} (hT : 0 < T) (L : Fin T → EReal) (f : Fin T → ℝ)
    (hL : ∀ j, L j = ((f j : ℝ) : EReal)) :
    ∃ ν : ℝ, maxLogit T L = (ν : EReal) ∧ (∀ j, f j ≤ ν) ∧ ∃ j, f j = ν := by
  haveI : Nonempty (Fin T) := ⟨⟨0, hT⟩⟩
  obtain ⟨j0, -, hj0⟩ := Finset.exists_max_image (Finset.univ : Finset (Fin T)) f Finset.univ_nonempty
  refine ⟨f j0, ?_, fun j => hj0 j (Finset.mem_univ j), j0, rfl⟩
  unfold maxLogit
  apply le_antisymm
  · rw [Finset.fold_max_le]
    refine ⟨bot_le, fun j _ => ?_⟩
    rw [hL j]
    exact EReal.coe_le_coe_iff.mpr (hj0 j (Finset.mem_univ j))
  · rw [Finset.le_fold_max]
    exact Or.inr ⟨j0, Finset.mem_univ j0, by rw [hL j0]⟩

/-- The first `N + T` terms are the first `N` and then a tile of `T`. -/
private theorem sum_range_add_tile (N T : ℕ) (g : ℕ → ℝ) :
    ∑ n ∈ Finset.range (N + T), g n = ∑ n ∈ Finset.range N, g n + ∑ j : Fin T, g (N + j.val) := by
  rw [Finset.sum_range_add, Fin.sum_univ_eq_sum_range (fun j => g (N + j)) T]

/-- A property of the first `N` indices and of a tile of `T` more holds of the first `N + T`. -/
private theorem forall_lt_add {N T : ℕ} {p : ℕ → Prop} (h1 : ∀ n < N, p n) (h2 : ∀ j : Fin T, p (N + j.val)) :
    ∀ n < N + T, p n := by
  intro n hn
  by_cases h : n < N
  · exact h1 n h
  · have hj : n = N + (⟨n - N, by omega⟩ : Fin T).val := by
      show n = N + (n - N)
      omega
    rw [hj]
    exact h2 _

/-- Moving the reference point of the exponentials from `μ` to `μ'` multiplies every term by `exp (μ - μ')`. -/
private theorem rescale_sum (N : ℕ) (ℓ c : ℕ → ℝ) (μ μ' : ℝ) :
    Real.exp (μ - μ') * ∑ n ∈ Finset.range N, Real.exp (ℓ n - μ) * c n
      = ∑ n ∈ Finset.range N, Real.exp (ℓ n - μ') * c n := by
  rw [Finset.mul_sum]
  refine Finset.sum_congr rfl fun n _ => ?_
  have he : Real.exp (ℓ n - μ') = Real.exp (μ - μ') * Real.exp (ℓ n - μ) := by
    rw [← Real.exp_add]
    congr 1
    ring
  rw [he]
  ring

/-- The same without the factors `c n`. -/
private theorem rescale_sum_one (N : ℕ) (ℓ : ℕ → ℝ) (μ μ' : ℝ) :
    Real.exp (μ - μ') * ∑ n ∈ Finset.range N, Real.exp (ℓ n - μ)
      = ∑ n ∈ Finset.range N, Real.exp (ℓ n - μ') := by
  simpa using rescale_sum N ℓ (fun _ => 1) μ μ'

/-- The exponentials of a tile of finite logits against a finite reference point sum to a finite value. -/
theorem tile_exp_sum {T : ℕ} (Lt : Fin T → EReal) (f : Fin T → ℝ) (hL : ∀ j, Lt j = ((f j : ℝ) : EReal))
    (μ' : ℝ) :
    ∑ j : Fin T, Ideal.exp (Lt j - (μ' : EReal)) = ((∑ j : Fin T, Real.exp (f j - μ') : ℝ) : EReal) := by
  rw [← Cert.LibEReal.coe_sum]
  refine Finset.sum_congr rfl fun j _ => ?_
  rw [hL j, Cert.LibEReal.coe_sub, Ideal.exp_coe]

/-- The same with finite values as factors. -/
theorem tile_exp_mul_sum {T : ℕ} (Lt Dt : Fin T → EReal) (f d : Fin T → ℝ)
    (hL : ∀ j, Lt j = ((f j : ℝ) : EReal)) (hD : ∀ j, Dt j = ((d j : ℝ) : EReal)) (μ' : ℝ) :
    ∑ j : Fin T, Ideal.exp (Lt j - (μ' : EReal)) * Dt j
      = ((∑ j : Fin T, Real.exp (f j - μ') * d j : ℝ) : EReal) := by
  rw [← Cert.LibEReal.coe_sum]
  refine Finset.sum_congr rfl fun j _ => ?_
  rw [hL j, hD j, Cert.LibEReal.coe_sub, Ideal.exp_coe, Cert.LibEReal.coe_mul]

/-- The larger of two finite values is finite. -/
private theorem coe_max (x y : ℝ) : max (x : EReal) (y : EReal) = ((max x y : ℝ) : EReal) :=
  (EReal.coe_strictMono.monotone.map_max).symm

/-- Consuming a tile of `T > 0` further entries: the running maximum becomes the larger of itself and the tile's
    maximum, and the running sums are rescaled to it and extended by the tile's terms. -/
theorem Streamed.step {T N : ℕ} (hT : 0 < T) {ℓ δ : ℕ → ℝ} {m l a : EReal} (h : Streamed N ℓ δ m l a)
    (Lt Dt : Fin T → EReal) (hL : ∀ j : Fin T, Lt j = ((ℓ (N + j.val) : ℝ) : EReal))
    (hD : ∀ j : Fin T, Dt j = ((δ (N + j.val) : ℝ) : EReal)) :
    Streamed (N + T) ℓ δ (max m (maxLogit T Lt))
      (Ideal.exp (m - max m (maxLogit T Lt)) * l + ∑ j : Fin T, Ideal.exp (Lt j - max m (maxLogit T Lt)))
      (Ideal.exp (m - max m (maxLogit T Lt)) * a
        + ∑ j : Fin T, Ideal.exp (Lt j - max m (maxLogit T Lt)) * Dt j) := by
  obtain ⟨ν, hν, hle, j0, hj0⟩ := maxLogit_coe hT Lt (fun j => ℓ (N + j.val)) hL
  rw [hν]
  rcases h with ⟨hN, hm, hl, ha⟩ | ⟨hN, μ, hm, hμle, ⟨n0, hn0, hn0μ⟩, hl, ha⟩
  · -- nothing consumed yet: the running maximum is `-∞`, whose exponential is `0`
    subst hm hl ha
    have hmax : max (⊥ : EReal) (ν : EReal) = (ν : EReal) := max_eq_right bot_le
    have hr : Finset.range N = ∅ := by rw [hN, Finset.range_zero]
    rw [hmax, mul_zero, tile_exp_sum Lt _ hL ν, tile_exp_mul_sum Lt Dt _ _ hL hD ν]
    simp only [zero_add]
    refine Or.inr ⟨by omega, ν, rfl, ?_, ⟨N + j0.val, by omega, hj0⟩, ?_, ?_⟩
    · exact forall_lt_add (p := fun n => ℓ n ≤ ν) (fun n hn => absurd hn (by omega)) hle
    · rw [sum_range_add_tile N T, hr, Finset.sum_empty, zero_add]
    · rw [sum_range_add_tile N T, hr, Finset.sum_empty, zero_add]
  · -- a finite running maximum `μ`: the new one is `max μ ν`
    subst hm hl ha
    rw [coe_max, Cert.LibEReal.coe_sub, Ideal.exp_coe, Cert.LibEReal.coe_mul, Cert.LibEReal.coe_mul,
      tile_exp_sum Lt _ hL (max μ ν), tile_exp_mul_sum Lt Dt _ _ hL hD (max μ ν),
      Cert.LibEReal.coe_add, Cert.LibEReal.coe_add, rescale_sum_one, rescale_sum]
    refine Or.inr ⟨by omega, max μ ν, rfl, ?_, ?_, ?_, ?_⟩
    · exact forall_lt_add (p := fun n => ℓ n ≤ max μ ν) (fun n hn => (hμle n hn).trans (le_max_left _ _))
        (fun j => (hle j).trans (le_max_right _ _))
    · rcases le_total μ ν with hμν | hνμ
      · exact ⟨N + j0.val, by omega, by rw [max_eq_right hμν]; exact hj0⟩
      · exact ⟨n0, by omega, by rw [max_eq_left hνμ]; exact hn0μ⟩
    · rw [sum_range_add_tile N T]
    · rw [sum_range_add_tile N T]

/-- After at least one entry the quotient of the two running sums is the softmax-weighted average. -/
theorem Streamed.div_eq {N : ℕ} (hN : 0 < N) {ℓ δ : ℕ → ℝ} {m l a : EReal} (h : Streamed N ℓ δ m l a)
    (L D : Fin N → EReal) (hL : ∀ n : Fin N, L n = ((ℓ n.val : ℝ) : EReal))
    (hD : ∀ n : Fin N, D n = ((δ n.val : ℝ) : EReal)) :
    Ideal.div a l = softmaxAvg N L D := by
  rcases h with ⟨hN0, -⟩ | ⟨-, μ, -, hμle, ⟨n0, hn0, hn0μ⟩, hl, ha⟩
  · omega
  -- the direct evaluation's maximum is the running one: both bound all entries and both are attained
  obtain ⟨ν, hν, hle, j0, hj0⟩ := maxLogit_coe hN L (fun n => ℓ n.val) hL
  have hνμ : ν = μ :=
    le_antisymm (by rw [← hj0]; exact hμle j0.val j0.isLt) (by rw [← hn0μ]; exact hle ⟨n0, hn0⟩)
  subst hνμ
  -- the normaliser is positive: a nonempty sum of exponentials
  have hS : 0 < ∑ n ∈ Finset.range N, Real.exp (ℓ n - ν) :=
    Finset.sum_pos (fun n _ => Real.exp_pos _) (Finset.nonempty_range_iff.mpr hN.ne')
  have hden : ∑ k : Fin N, Ideal.exp (L k - (ν : EReal))
      = ((∑ n ∈ Finset.range N, Real.exp (ℓ n - ν) : ℝ) : EReal) := by
    rw [tile_exp_sum L _ hL ν, Fin.sum_univ_eq_sum_range (fun n => Real.exp (ℓ n - ν)) N]
  have hterm : ∀ n : Fin N,
      Ideal.div (Ideal.exp (L n - (ν : EReal))) ((∑ n ∈ Finset.range N, Real.exp (ℓ n - ν) : ℝ) : EReal) * D n
        = ((Real.exp (ℓ n.val - ν) / (∑ n ∈ Finset.range N, Real.exp (ℓ n - ν)) * δ n.val : ℝ) : EReal) := by
    intro n
    rw [hL n, hD n, Cert.LibEReal.coe_sub, Ideal.exp_coe, Cert.LibEReal.div_coe' _ _ hS.ne',
      Cert.LibEReal.coe_mul]
  unfold softmaxAvg
  rw [hν, hden, Finset.sum_congr rfl (fun n _ => hterm n), Cert.LibEReal.coe_sum,
    Fin.sum_univ_eq_sum_range
      (fun n => Real.exp (ℓ n - ν) / (∑ n ∈ Finset.range N, Real.exp (ℓ n - ν)) * δ n) N,
    hl, ha, Cert.LibEReal.div_coe' _ _ hS.ne', Finset.sum_div]
  congr 1
  refine Finset.sum_congr rfl fun n _ => ?_
  ring

end Cert.NW

end
-- ==== Proof.KInduct.lean ====
/-
  The kernel's carried state, by induction over the grid points.

  The kernel visits eight grid points: point `t` works on row block `t / 4` and on the sample tile `t % 4`. Each
  point runs one step of the one-pass ("online") softmax over its tile, carrying a running maximum, a running sum
  and a running weighted sum per row: the first point of a row block starts from (-∞, 0, 0), the later ones from
  what the point before left, and the last one also writes the quotient of the two sums. So after point `t` the
  carried state of row `r` is the one-pass evaluation's state after the first `1024·(t % 4 + 1)` samples of
  query row `64·(t / 4) + r`, and what the last point of a row block writes is the softmax-weighted average over
  all `4096` samples: the regression's value.
-/
import proofs.«172330_j34153579937939_2_alg».proof.Proof.Gen.KernelIdeal.Frame
import proofs.«172330_j34153579937939_2_alg».proof.Proof.KStep
import proofs.«172330_j34153579937939_2_alg».proof.Proof.KTile
import proofs.«172330_j34153579937939_2_alg».proof.Proof.KPieces
import proofs.«172330_j34153579937939_2_alg».proof.Proof.KBlocks
import proofs.«172330_j34153579937939_2_alg».proof.Proof.Spec
import proofs.«172330_j34153579937939_2_alg».proof.Proof.SpecReal
import proofs.«172330_j34153579937939_2_alg».proof.Proof.OnlineSoftmax
import Idealize.ShloMosaic.Lib.ValueIdx
import Mathlib.Tactic

noncomputable section

namespace Cert.NW.KInduct

open Cert.KernelIdeal Cert.KernelIdeal.Gen Idealize.ShloMosaic Idealize.ShloMosaic.ValueIdx
open Cert.NW.KBlocks (rowOf sampleOf)

variable (m : (ℓ : Loc nD τ sig) → Buf (Elt Ideal) ℓ) (c : Dev nD)
variable (Z : (⟨2, ![128, 512]⟩ : Shape).Idx → EReal) (tt : (⟨1, ![128]⟩ : Shape).Idx → EReal)
  (X0 X1 : (⟨2, ![4096, 512]⟩ : Shape).Idx → EReal)

/-- What the induction needs of the inputs: at every grid point the six blocks are the rows of the query array
    \`Z\`, of its time column \`tt\` (and \`1 - tt\`, and the squared norms of the rows of \`Z\`) that belong to the
    point's row block, and the rows of the two sampled tables \`X0\`, \`X1\` that belong to the point's tile; and all
    four arrays are finite. -/
structure Inputs : Prop where
  blk0 : ∀ (t : Fin cfg0.N) (r : Fin 64) (k : Fin 512),
    (iblk m c 0 t : Vec Ideal S64x512 .f32) (ix2 r k) = Z (ix2 (rowOf t r) k)
  blk1 : ∀ (t : Fin cfg0.N) (r : Fin 64), (iblk m c 1 t : Vec Ideal S64x1 .f32) (ix2 r 0) = tt (ix1 (rowOf t r))
  blk2 : ∀ (t : Fin cfg0.N) (r : Fin 64),
    (iblk m c 2 t : Vec Ideal S64x1 .f32) (ix2 r 0) = NW.oneW - tt (ix1 (rowOf t r))
  blk3 : ∀ (t : Fin cfg0.N) (r : Fin 64),
    (iblk m c 3 t : Vec Ideal S64x1 .f32) (ix2 r 0) = ∑ d : Fin 512, Z (ix2 (rowOf t r) d) * Z (ix2 (rowOf t r) d)
  blk4 : ∀ (t : Fin cfg0.N) (j : Fin 1024) (k : Fin 512),
    (iblk m c 4 t : Vec Ideal S1024x512 .f32) (ix2 j k) = X0 (ix2 (sampleOf t j) k)
  blk5 : ∀ (t : Fin cfg0.N) (j : Fin 1024) (k : Fin 512),
    (iblk m c 5 t : Vec Ideal S1024x512 .f32) (ix2 j k) = X1 (ix2 (sampleOf t j) k)
  realZ : ∀ i, ∃ r : ℝ, Z i = (r : EReal)
  realT : ∀ i, ∃ r : ℝ, tt i = (r : EReal)
  realX0 : ∀ i, ∃ r : ℝ, X0 i = (r : EReal)
  realX1 : ∀ i, ∃ r : ℝ, X1 i = (r : EReal)

/-! ## The logits and the value differences as real sequences -/

/-- The logits of query row \`b\` as a sequence of reals (\`0\` past the last sample). -/
def logitSeq (b : Fin 128) : ℕ → ℝ :=
  fun n => if h : n < 4096 then (NW.logit Z tt X0 X1 b ⟨n, h⟩).toReal else 0

/-- The value differences at column \`d\` as a sequence of reals (\`0\` past the last sample). -/
def deltaSeq (d : Fin 512) : ℕ → ℝ :=
  fun n => if h : n < 4096 then (NW.delta X0 X1 d ⟨n, h⟩).toReal else 0

/-- A finite logit is its entry of the real sequence. -/
theorem logitSeq_coe (hZ : ∀ i, ∃ r : ℝ, Z i = (r : EReal)) (ht : ∀ i, ∃ r : ℝ, tt i = (r : EReal))
    (hX0 : ∀ i, ∃ r : ℝ, X0 i = (r : EReal)) (hX1 : ∀ i, ∃ r : ℝ, X1 i = (r : EReal))
    (b : Fin 128) (n : Fin 4096) :
    NW.logit Z tt X0 X1 b n = ((logitSeq Z tt X0 X1 b n.val : ℝ) : EReal) := by
  obtain ⟨x, hx⟩ := NW.logit_real Z tt X0 X1 hZ ht hX0 hX1 b n
  have e : logitSeq Z tt X0 X1 b n.val = (NW.logit Z tt X0 X1 b n).toReal := by
    unfold logitSeq
    rw [dif_pos n.isLt]
  rw [e, hx, EReal.toReal_coe]

/-- A finite value difference is its entry of the real sequence. -/
theorem deltaSeq_coe (hX0 : ∀ i, ∃ r : ℝ, X0 i = (r : EReal)) (hX1 : ∀ i, ∃ r : ℝ, X1 i = (r : EReal))
    (d : Fin 512) (n : Fin 4096) :
    NW.delta X0 X1 d n = ((deltaSeq X0 X1 d n.val : ℝ) : EReal) := by
  obtain ⟨x, hx⟩ := NW.delta_real X0 X1 hX0 hX1 d n
  have e : deltaSeq X0 X1 d n.val = (NW.delta X0 X1 d n).toReal := by
    unfold deltaSeq
    rw [dif_pos n.isLt]
  rw [e, hx, EReal.toReal_coe]

/-! ## One step over blocks given as variables -/

section point

variable (zb : FVec Ideal S64x512 .f32) (ab bb z2b : FVec Ideal S64x1 .f32) (x0b x1b : FVec Ideal S1024x512 .f32)

/-- Blocks that hold query row \`b\` (in row \`r\`) and sample \`n\` (in row \`j\`) give the specification's logit of
    \`(b, n)\`: the two formulas are the same expression in those entries. -/
theorem blockLogit_eq (b : Fin 128) (n : Fin 4096) (r : Fin 64) (j : Fin 1024)
    (hz : ∀ k : Fin 512, zb (ix2 r k) = Z (ix2 b k)) (ha : ab (ix2 r 0) = tt (ix1 b))
    (hb : bb (ix2 r 0) = NW.oneW - tt (ix1 b)) (hz2 : z2b (ix2 r 0) = ∑ d : Fin 512, Z (ix2 b d) * Z (ix2 b d))
    (hx0 : ∀ k : Fin 512, x0b (ix2 j k) = X0 (ix2 n k)) (hx1 : ∀ k : Fin 512, x1b (ix2 j k) = X1 (ix2 n k)) :
    KTile.blockLogit zb ab bb z2b x0b x1b r j = NW.logit Z tt X0 X1 b n := by
  unfold KTile.blockLogit NW.logit NW.sqDist
  rw [ha, hb, hz2]
  simp only [hz, hx0, hx1]

/-- Blocks that hold sample `n` (in row `j`) give the specification's value difference at `(d, n)`. -/
theorem blockDelta_eq (n : Fin 4096) (j : Fin 1024) (d : Fin 512)
    (hx0 : x0b (ix2 j d) = X0 (ix2 n d)) (hx1 : x1b (ix2 j d) = X1 (ix2 n d)) :
    x1b (ix2 j d) - x0b (ix2 j d) = NW.delta X0 X1 d n := by
  rw [hx0, hx1]
  rfl

/-- The state the first step starts from is the one-pass evaluation's state before anything is consumed. -/
theorem init_streamed (ℓ δ : ℕ → ℝ) (r : Fin 64) (d : Fin 512) :
    Streamed 0 ℓ δ (KStep.m0 (F := Ideal) (ix2 r 0)) (KStep.l0 (F := Ideal) (ix2 r 0))
      (KStep.a0 (F := Ideal) (ix2 r d)) := by
  rw [KTile.m0_apply, KTile.l0_apply, KTile.a0_apply]
  exact Streamed.init ℓ δ

/-- One step of the kernel is one tile of the one-pass evaluation: if the carried state of row \`r\` (at column
    \`d\`) is the state after \`N\` entries, and the step's logits and value differences are entries
    \`N … N + 1023\`, the state the step leaves is the state after \`N + 1024\` entries. -/
theorem step_streamed {N : ℕ} {ℓ δ : ℕ → ℝ} (mo lo : FVec Ideal S64x1 .f32) (ao : FVec Ideal S64x512 .f32)
    (r : Fin 64) (d : Fin 512)
    (h : Streamed N ℓ δ (mo (ix2 r 0)) (lo (ix2 r 0)) (ao (ix2 r d)))
    (hL : ∀ j : Fin 1024, KTile.blockLogit zb ab bb z2b x0b x1b r j = ((ℓ (N + j.val) : ℝ) : EReal))
    (hD : ∀ j : Fin 1024, x1b (ix2 j d) - x0b (ix2 j d) = ((δ (N + j.val) : ℝ) : EReal)) :
    Streamed (N + 1024) ℓ δ (KStep.stepM (F := Ideal) zb ab bb z2b x0b x1b mo (ix2 r 0))
      (KStep.stepL (F := Ideal) zb ab bb z2b x0b x1b mo lo (ix2 r 0))
      (KStep.stepA (F := Ideal) zb ab bb z2b x0b x1b mo ao (ix2 r d)) := by
  rw [KTile.stepM_apply, KTile.stepL_apply, KTile.stepA_apply]
  exact Streamed.step (by norm_num) h (fun j => KTile.blockLogit zb ab bb z2b x0b x1b r j)
    (fun j => x1b (ix2 j d) - x0b (ix2 j d)) hL hD

end point

/-! ## What each grid point leaves, as the step functions of its blocks -/

/-- The first point of a row block runs the step over the reset state. -/
theorem scratch_A (t : Fin cfg0.N) (h0 : t.val % 4 = 0) :
    (outsAt0 m c t.val t.isLt).2.1 = KStep.stepM (F := Ideal) (iblk m c 0 t) (iblk m c 1 t) (iblk m c 2 t) (iblk m c 3 t) (iblk m c 4 t) (iblk m c 5 t) (KStep.m0 (F := Ideal))
    ∧ (outsAt0 m c t.val t.isLt).2.2.1 = KStep.stepL (F := Ideal) (iblk m c 0 t) (iblk m c 1 t) (iblk m c 2 t) (iblk m c 3 t) (iblk m c 4 t) (iblk m c 5 t) (KStep.m0 (F := Ideal)) (KStep.l0 (F := Ideal))
    ∧ (outsAt0 m c t.val t.isLt).2.2.2 = KStep.stepA (F := Ideal) (iblk m c 0 t) (iblk m c 1 t) (iblk m c 2 t) (iblk m c 3 t) (iblk m c 4 t) (iblk m c 5 t) (KStep.m0 (F := Ideal)) (KStep.a0 (F := Ideal)) := by
  have h1 : ¬t.val % 4 = 3 := by omega
  refine ⟨?_, ?_, ?_⟩
  · rw [outsAt0_A m c t h0 h1]
    dsimp only
    exact KPieces.scratch0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · rw [outsAt0_A m c t h0 h1]
    dsimp only
    exact KPieces.scratch1_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · rw [outsAt0_A m c t h0 h1]
    dsimp only
    exact KPieces.scratch2_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- A middle point runs the step over the state the point before left. -/
theorem scratch_B (t : Fin cfg0.N) (h0 : ¬t.val % 4 = 0) (h1 : ¬t.val % 4 = 3) :
    (outsAt0 m c t.val t.isLt).2.1 = KStep.stepM (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1
    ∧ (outsAt0 m c t.val t.isLt).2.2.1 = KStep.stepL (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = KStep.stepA (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2 := by
  refine ⟨?_, ?_, ?_⟩
  · rw [outsAt0_B m c t h0 h1]
    dsimp only
    exact KPieces.scratch0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact KPieces.scratch1_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact KPieces.scratch2_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The last point of a row block runs the step over the state the point before left, and writes the quotient of
    the new weighted sum by the new sum. -/
theorem scratch_C (t : Fin cfg0.N) (h0 : ¬t.val % 4 = 0) (h1 : t.val % 4 = 3) :
    (outsAt0 m c t.val t.isLt).2.1 = KStep.stepM (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1
    ∧ (outsAt0 m c t.val t.isLt).2.2.1 = KStep.stepL (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = KStep.stepA (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2
    ∧ (outsAt0 m c t.val t.isLt).1 = KStep.quotient (F := Ideal)
        (KStep.stepA (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2)
        (KStep.stepL (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1) := by
  refine ⟨?_, ?_, ?_, ?_⟩
  · rw [outsAt0_C m c t h0 h1]
    dsimp only
    exact KPieces.scratch0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1]
    dsimp only
    exact KPieces.scratch1_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1]
    dsimp only
    exact KPieces.scratch2_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1]
    dsimp only
    exact KPieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- A point that is not the first of its row block, whichever of the two: the step over the state before. -/
theorem scratch_BC (t : Fin cfg0.N) (h0 : ¬t.val % 4 = 0) :
    (outsAt0 m c t.val t.isLt).2.1 = KStep.stepM (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1
    ∧ (outsAt0 m c t.val t.isLt).2.2.1 = KStep.stepL (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = KStep.stepA (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2 := by
  by_cases h1 : t.val % 4 = 3
  · exact ⟨(scratch_C m c t h0 h1).1, (scratch_C m c t h0 h1).2.1, (scratch_C m c t h0 h1).2.2.1⟩
  · exact scratch_B m c t h0 h1

/-! ## The induction over the grid points -/

/-- The logits of the step at point \`t\` are entries \`1024·(t % 4) …\` of row \`rowOf t r\`'s logit sequence. -/
theorem point_logit (hI : Inputs m c Z tt X0 X1) (t : Fin cfg0.N) (r : Fin 64) (j : Fin 1024) :
    KTile.blockLogit (iblk m c 0 t) (iblk m c 1 t) (iblk m c 2 t) (iblk m c 3 t) (iblk m c 4 t) (iblk m c 5 t) r j
      = ((logitSeq Z tt X0 X1 (rowOf t r) (1024 * (t.val % 4) + j.val) : ℝ) : EReal) :=
  (blockLogit_eq Z tt X0 X1 (iblk m c 0 t) (iblk m c 1 t) (iblk m c 2 t) (iblk m c 3 t) (iblk m c 4 t) (iblk m c 5 t) (rowOf t r) (sampleOf t j) r j
      (hI.blk0 t r) (hI.blk1 t r) (hI.blk2 t r) (hI.blk3 t r) (hI.blk4 t j) (hI.blk5 t j)).trans
    (logitSeq_coe Z tt X0 X1 hI.realZ hI.realT hI.realX0 hI.realX1 (rowOf t r) (sampleOf t j))

/-- The value differences of the step at point `t` are entries `1024·(t % 4) …` of column `d`'s sequence. -/
theorem point_delta (hI : Inputs m c Z tt X0 X1) (t : Fin cfg0.N) (d : Fin 512) (j : Fin 1024) :
    NW.delta X0 X1 d (sampleOf t j) = ((deltaSeq X0 X1 d (1024 * (t.val % 4) + j.val) : ℝ) : EReal) :=
  deltaSeq_coe X0 X1 hI.realX0 hI.realX1 d (sampleOf t j)

/-- The first point of a row block leaves the state after the first \`1024\` entries. -/
theorem point_A (hI : Inputs m c Z tt X0 X1) (t : Fin cfg0.N) (h0 : t.val % 4 = 0) (r : Fin 64) (d : Fin 512) :
    Streamed (1024 * (t.val % 4 + 1)) (logitSeq Z tt X0 X1 (rowOf t r)) (deltaSeq X0 X1 d)
      ((outsAt0 m c t.val t.isLt).2.1 (ix2 r 0)) ((outsAt0 m c t.val t.isLt).2.2.1 (ix2 r 0))
      ((outsAt0 m c t.val t.isLt).2.2.2 (ix2 r d)) := by
  obtain ⟨eM, eL, eA⟩ := scratch_A m c t h0
  have hL := point_logit m c Z tt X0 X1 hI t r
  have hD := point_delta m c Z tt X0 X1 hI t d
  have eN : 1024 * (t.val % 4 + 1) = 0 + 1024 := by omega
  have e0 : 1024 * (t.val % 4) = 0 := by omega
  rw [e0] at hL hD
  rw [eM, eL, eA, eN]
  exact step_streamed (iblk m c 0 t) (iblk m c 1 t) (iblk m c 2 t) (iblk m c 3 t) (iblk m c 4 t) (iblk m c 5 t) (KStep.m0 (F := Ideal)) (KStep.l0 (F := Ideal)) (KStep.a0 (F := Ideal)) r d
    (init_streamed _ _ r d) hL
    (fun j => (blockDelta_eq X0 X1 (iblk m c 4 t) (iblk m c 5 t) (sampleOf t j) j d (hI.blk4 t j d) (hI.blk5 t j d)).trans (hD j))

/-- A later point of a row block takes the state after \`1024·(t % 4)\` entries to the state after \`1024\` more. -/
theorem point_BC (hI : Inputs m c Z tt X0 X1) (t : Fin cfg0.N) (h0 : ¬t.val % 4 = 0) (r : Fin 64) (d : Fin 512)
    (p : ℕ) (hp : p < cfg0.N) (hpe : p = t.val - 1)
    (hprev : Streamed (1024 * (t.val % 4)) (logitSeq Z tt X0 X1 (rowOf t r)) (deltaSeq X0 X1 d)
      ((outsAt0 m c p hp).2.1 (ix2 r 0)) ((outsAt0 m c p hp).2.2.1 (ix2 r 0)) ((outsAt0 m c p hp).2.2.2 (ix2 r d))) :
    Streamed (1024 * (t.val % 4 + 1)) (logitSeq Z tt X0 X1 (rowOf t r)) (deltaSeq X0 X1 d)
      ((outsAt0 m c t.val t.isLt).2.1 (ix2 r 0)) ((outsAt0 m c t.val t.isLt).2.2.1 (ix2 r 0))
      ((outsAt0 m c t.val t.isLt).2.2.2 (ix2 r d)) := by
  subst hpe
  obtain ⟨eM, eL, eA⟩ := scratch_BC m c t h0
  have eN : 1024 * (t.val % 4 + 1) = 1024 * (t.val % 4) + 1024 := by omega
  rw [eM, eL, eA, eN]
  exact step_streamed (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r d hprev
    (point_logit m c Z tt X0 X1 hI t r)
    (fun j => (blockDelta_eq X0 X1 (iblk m c 4 t) (iblk m c 5 t) (sampleOf t j) j d (hI.blk4 t j d) (hI.blk5 t j d)).trans
      (point_delta m c Z tt X0 X1 hI t d j))

/-- After every grid point the carried state of every row (at every column) is the one-pass evaluation's state
    after the tiles of the row block consumed so far: by induction on the point. -/
theorem state_streamed_nat (hI : Inputs m c Z tt X0 X1) :
    ∀ (n : ℕ) (hn : n < cfg0.N) (r : Fin 64) (d : Fin 512),
      Streamed (1024 * (n % 4 + 1)) (logitSeq Z tt X0 X1 (rowOf ⟨n, hn⟩ r)) (deltaSeq X0 X1 d)
        ((outsAt0 m c n hn).2.1 (ix2 r 0)) ((outsAt0 m c n hn).2.2.1 (ix2 r 0))
        ((outsAt0 m c n hn).2.2.2 (ix2 r d)) := by
  intro n
  induction n with
  | zero =>
    intro hn r d
    exact point_A m c Z tt X0 X1 hI ⟨0, hn⟩ (Nat.zero_mod 4) r d
  | succ k ih =>
    intro hn r d
    by_cases h0 : (k + 1) % 4 = 0
    · exact point_A m c Z tt X0 X1 hI ⟨k + 1, hn⟩ h0 r d
    · have hk : k < cfg0.N := Nat.lt_of_succ_lt hn
      have ih' := ih hk r d
      have eN : 1024 * (k % 4 + 1) = 1024 * ((k + 1) % 4) := by omega
      have eR : rowOf ⟨k, hk⟩ r = rowOf ⟨k + 1, hn⟩ r :=
        Fin.ext (by show 64 * (k / 4) + r.val = 64 * ((k + 1) / 4) + r.val; omega)
      rw [eN, eR] at ih'
      exact point_BC m c Z tt X0 X1 hI ⟨k + 1, hn⟩ h0 r d k hk (by show k = k + 1 - 1; omega) ih'

/-- The carried state after grid point \`t\`. -/
theorem state_streamed (hI : Inputs m c Z tt X0 X1) (t : Fin cfg0.N) (r : Fin 64) (d : Fin 512) :
    Streamed (1024 * (t.val % 4 + 1)) (logitSeq Z tt X0 X1 (rowOf t r)) (deltaSeq X0 X1 d)
      ((outsAt0 m c t.val t.isLt).2.1 (ix2 r 0)) ((outsAt0 m c t.val t.isLt).2.2.1 (ix2 r 0))
      ((outsAt0 m c t.val t.isLt).2.2.2 (ix2 r d)) :=
  state_streamed_nat m c Z tt X0 X1 hI t.val t.isLt r d

/-- The last point of a row block writes the regression's value: the quotient of the two running sums after all
    \`4096\` entries is the softmax-weighted average. -/
theorem out_value (hI : Inputs m c Z tt X0 X1) (t : Fin cfg0.N) (ht : t.val % 4 = 3) (r : Fin 64) (d : Fin 512) :
    (outsAt0 m c t.val t.isLt).1 (ix2 r d) = NW.value Z tt X0 X1 (rowOf t r) d := by
  have h0 : ¬t.val % 4 = 0 := by omega
  obtain ⟨-, eL, eA, eO⟩ := scratch_C m c t h0 ht
  have hS := state_streamed m c Z tt X0 X1 hI t r d
  have e4096 : 1024 * (t.val % 4 + 1) = 4096 := by omega
  rw [eL, eA, e4096] at hS
  rw [eO, KTile.quotient_apply]
  unfold NW.value
  exact Streamed.div_eq (by norm_num) hS (fun n => NW.logit Z tt X0 X1 (rowOf t r) n)
    (fun n => NW.delta X0 X1 d n)
    (fun n => logitSeq_coe Z tt X0 X1 hI.realZ hI.realT hI.realX0 hI.realX1 (rowOf t r) n)
    (fun n => deltaSeq_coe X0 X1 hI.realX0 hI.realX1 d n)

end Cert.NW.KInduct

end
-- ==== Proof.KHost.lean ====
/-
  What the host operations of the kernel's program leave in the arrays its region reads, and that, under the
  certificate's precondition, every entry of those arrays is a real number.

  The region reads six arrays. One is the argument z itself. Two are the vector t and the vector 1 - t, each re-shaped
  from [128] to a column [128, 1]. One is the column of the row sums of squares, the sum over d of z[b, d] * z[b, d].
  Two are row gathers of the tables pi_0 and pi_1 at the wrapped indices (a negative index has the table's height
  added). The gathers are, operation for operation, the ones the reference program starts with, so they are stated
  as the reference's own terms. An entry of a row gather is an entry of the table, whatever the index, so it is real
  when every entry of the table is.
-/
import proofs.«172330_j34153579937939_2_alg».proof.Proof.Gen.KernelIdeal.Frame
import proofs.«172330_j34153579937939_2_alg».proof.Proof.Gen.ReferenceIdeal.Read
import proofs.«172330_j34153579937939_2_alg».proof.Defs
import proofs.«172330_j34153579937939_2_alg».proof.Proof.LibKeepdims
import Idealize.ShloMosaic.Lib.Pipeline.Value
import Idealize.ShloMosaic.Lib.ValueIdx
import Idealize.ShloMosaic.Lib.ValueLayout
import Idealize.ShloMosaic.Lib.ReduceAll
import Idealize.ShloMosaic.Lib.IdealHost
import Idealize.ShloMosaic.Lib.StableHlo.Run
import Idealize.ShloMosaic.PureOps.Ideal.Laws

noncomputable section

namespace Cert.NW.KHost

open Cert.KernelIdeal Cert.KernelIdeal.Gen Idealize.ShloMosaic Idealize.ShloMosaic.ValueIdx

/-! ## The layout and arithmetic operations, read at an index, over any operand -/

/-- The vector 1 - t re-shaped to a column reads, in row b, one minus t's entry b. -/
theorem col_one_sub (t : FVec Ideal S128 .f32) (b : Fin 128) (u : Fin 1) :
    shapeCast S128x1 (subf (broadcastInDim S128 ![] bcast_S_S128 (constant (F := Ideal) S_ .f32 0x3F800000#32)) t)
        shapeCasts_S128_S128x1 (ix2 b u)
      = Ideal.ofBits .f32 0x3F800000#32 - t (ix1 b) := by
  rw [Cert.LibKeepdims.shapeCast_a_a1_apply, subf_apply, broadcastInDim_scalar_apply, constant_apply]

/-- The column of row sums of squares reads, in row b, the sum over the 512 columns of the squared entries of row b:
    the sum starts from the constant 0, which adds nothing. -/
theorem col_rowsum_sq (z : FVec Ideal S128x512 .f32) (b : Fin 128) (u : Fin 1) :
    broadcastInDim S128x1 ![0] bcast_S128_S128x1_0
        (Host.reduceAdd (F := Ideal) (mulf z z) (constant (F := Ideal) S_ .f32 0x00000000#32)
          reducesTo_S128x512_S128_d1 h_S_) (ix2 b u)
      = ∑ d : Fin 512, z (ix2 b d) * z (ix2 b d) := by
  rw [broadcastInDim_apply _ bcast_S128_S128x1_0 _ (ix2 b u) (ix1 b) (fun a => match a with
    | ⟨0, _⟩ => by show b.val = if (128 : Nat) = 1 then 0 else b.val; rw [if_neg (by decide)])]
  rw [hostReduceAdd_apply, Ideal.hostReduceAdd_single reducesTo_S128x512_S128_d1 (by decide), constant_apply,
    Ideal.ofBits_zero_f32, zero_add]
  refine Finset.sum_congr rfl fun d _ => ?_
  rw [mulf_apply]
  refine congrArg (fun i => z i * z i) (funext fun a => Fin.ext ?_)
  match a with
  | ⟨0, _⟩ => rfl
  | ⟨1, _⟩ => rfl

/-- The kernel's program wraps the indices and gathers the table's rows with the very operations the reference
    program starts with: the two terms unfold to one. -/
theorem gather_eq_ref6 (x : FVec Ideal S50000x512 .f32) (i : IVec S4096 32) :
    Host.gather gather_S50000x512_S4096x1_S4096x512_1_0_n_n_0_1_1512 x
        (broadcastInDim S4096x1 ![0] bcast_S4096_S4096x1_0
          (select (cmpi .slt i (broadcastInDim S4096 ![] bcast_S_S4096 (constantI S_ 32 0#32)))
            (addi i (broadcastInDim S4096 ![] bcast_S_S4096 (constantI S_ 32 50000#32))) i))
      = Cert.ReferenceIdeal.Read.val_main_v6 (F := Ideal) x i := rfl

theorem gather_eq_ref13 (x : FVec Ideal S50000x512 .f32) (i : IVec S4096 32) :
    Host.gather gather_S50000x512_S4096x1_S4096x512_1_0_n_n_0_1_1512 x
        (broadcastInDim S4096x1 ![0] bcast_S4096_S4096x1_0
          (select (cmpi .slt i (broadcastInDim S4096 ![] bcast_S_S4096 (constantI S_ 32 0#32)))
            (addi i (broadcastInDim S4096 ![] bcast_S_S4096 (constantI S_ 32 50000#32))) i))
      = Cert.ReferenceIdeal.Read.val_main_v13 (F := Ideal) x i := rfl

/-! ## The arrays the region reads -/

variable (m : (ℓ : Loc Cert.KernelIdeal.nD Cert.KernelIdeal.τ Cert.KernelIdeal.sig) → Buf (Elt Ideal) ℓ)
  (c : Dev Cert.KernelIdeal.nD)

/-- The program's five argument arrays on core c, as launched, each at its literal type: z, t, pi_0, pi_1 and the
    indices. (Reducible: each is the memory's buffer itself.) -/
abbrev A0 : S128x512.Idx → EReal := m ((c.tc : Thread nD τ).loc main_arg0)
abbrev A1 : S128.Idx → EReal := m ((c.tc : Thread nD τ).loc main_arg1)
abbrev A2 : S50000x512.Idx → EReal := m ((c.tc : Thread nD τ).loc main_arg2)
abbrev A3 : S50000x512.Idx → EReal := m ((c.tc : Thread nD τ).loc main_arg3)
abbrev A4 : S4096.Idx → BitVec 32 := m ((c.tc : Thread nD τ).loc main_arg4)

/-- The column the region reads for t is t re-shaped to [128, 1]: row b holds t's entry b. -/
theorem V_t (b : Fin 128) (u : Fin 1) :
    (V m c main_v14 : S128x1.Idx → EReal) (ix2 b u)
      = A1 m c (ix1 b) := by
  have e : (V m c main_v14 : S128x1.Idx → EReal)
      = shapeCast S128x1 (m ((c.tc : Thread nD τ).loc main_arg1) : S128.Idx → EReal) shapeCasts_S128_S128x1 := by
    dsimp only [Gen.V, Gen.hostOps0]; after_results; first | done | rfl
  rw [e]
  exact Cert.LibKeepdims.shapeCast_a_a1_apply _ _ b u

/-- The column the region reads for 1 - t: row b holds one minus t's entry b. -/
theorem V_1mt (b : Fin 128) (u : Fin 1) :
    (V m c main_v17 : S128x1.Idx → EReal) (ix2 b u)
      = Ideal.ofBits .f32 0x3F800000#32 - A1 m c (ix1 b) := by
  have e : (V m c main_v17 : S128x1.Idx → EReal)
      = shapeCast S128x1 (subf (broadcastInDim S128 ![] bcast_S_S128 (constant (F := Ideal) S_ .f32 0x3F800000#32))
          (m ((c.tc : Thread nD τ).loc main_arg1) : FVec Ideal S128 .f32)) shapeCasts_S128_S128x1 := by
    dsimp only [Gen.V, Gen.hostOps0]; after_results; first | done | rfl
  rw [e]
  exact col_one_sub _ b u

/-- The column the region reads for the squared norms: row b holds the sum over d of z[b, d] * z[b, d]. -/
theorem V_z2 (b : Fin 128) (u : Fin 1) :
    (V m c main_v20 : S128x1.Idx → EReal) (ix2 b u)
      = ∑ d : Fin 512, A0 m c (ix2 b d) * A0 m c (ix2 b d) := by
  have e : (V m c main_v20 : S128x1.Idx → EReal)
      = broadcastInDim S128x1 ![0] bcast_S128_S128x1_0
          (Host.reduceAdd (F := Ideal) (mulf (m ((c.tc : Thread nD τ).loc main_arg0) : FVec Ideal S128x512 .f32)
              (m ((c.tc : Thread nD τ).loc main_arg0))) (constant (F := Ideal) S_ .f32 0x00000000#32)
            reducesTo_S128x512_S128_d1 h_S_) := by
    dsimp only [Gen.V, Gen.hostOps0]; after_results; first | done | rfl
  rw [e]
  exact col_rowsum_sq _ b u

/-- The rows of pi_0 the region reads are the reference's gather of pi_0 at the wrapped indices. -/
theorem V_x0 :
    (V m c main_v6 : S4096x512.Idx → EReal)
      = Cert.ReferenceIdeal.Read.val_main_v6 (F := Ideal) (A2 m c) (A4 m c) := by
  have e : (V m c main_v6 : S4096x512.Idx → EReal)
      = Host.gather gather_S50000x512_S4096x1_S4096x512_1_0_n_n_0_1_1512
          (m ((c.tc : Thread nD τ).loc main_arg2) : FVec Ideal S50000x512 .f32)
          (broadcastInDim S4096x1 ![0] bcast_S4096_S4096x1_0
            (select (cmpi .slt (m ((c.tc : Thread nD τ).loc main_arg4) : IVec S4096 32)
                (broadcastInDim S4096 ![] bcast_S_S4096 (constantI S_ 32 0#32)))
              (addi (m ((c.tc : Thread nD τ).loc main_arg4) : IVec S4096 32)
                (broadcastInDim S4096 ![] bcast_S_S4096 (constantI S_ 32 50000#32)))
              (m ((c.tc : Thread nD τ).loc main_arg4) : IVec S4096 32))) := by
    dsimp only [Gen.V, Gen.hostOps0]; after_results; first | done | rfl
  rw [e]
  exact gather_eq_ref6 _ _

/-- The rows of pi_1 the region reads are the reference's gather of pi_1 at the wrapped indices. -/
theorem V_x1 :
    (V m c main_v13 : S4096x512.Idx → EReal)
      = Cert.ReferenceIdeal.Read.val_main_v13 (F := Ideal) (A3 m c) (A4 m c) := by
  have e : (V m c main_v13 : S4096x512.Idx → EReal)
      = Host.gather gather_S50000x512_S4096x1_S4096x512_1_0_n_n_0_1_1512
          (m ((c.tc : Thread nD τ).loc main_arg3) : FVec Ideal S50000x512 .f32)
          (broadcastInDim S4096x1 ![0] bcast_S4096_S4096x1_0
            (select (cmpi .slt (m ((c.tc : Thread nD τ).loc main_arg4) : IVec S4096 32)
                (broadcastInDim S4096 ![] bcast_S_S4096 (constantI S_ 32 0#32)))
              (addi (m ((c.tc : Thread nD τ).loc main_arg4) : IVec S4096 32)
                (broadcastInDim S4096 ![] bcast_S_S4096 (constantI S_ 32 50000#32)))
              (m ((c.tc : Thread nD τ).loc main_arg4) : IVec S4096 32))) := by
    dsimp only [Gen.V, Gen.hostOps0]; after_results; first | done | rfl
  rw [e]
  exact gather_eq_ref13 _ _

/-! ## Finiteness: under the precondition every entry the region reads is a real number

The precondition is the conjunction, over the four float arguments x, of "every |x[i]| is below +inf". Each conjunct
is a reduction by "and" of the element comparisons into one word; that word being 1 gives every comparison, and an
extended real whose absolute value is below +inf is neither infinity, so it is a real number. -/

/-- An extended real whose absolute value max x (-x) is below +inf (the float with bits 0x7F800000) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The shape of a scalar has one index. -/
theorem subsingleton_scalar_idx : Subsingleton (⟨0, ![]⟩ : Shape).Idx := ⟨fun a b => funext fun d => d.elim0⟩

/-- One conjunct of the precondition, for an array x of any shape: if the "and" of all comparisons |x[i]| < +inf is 1,
    every entry of x is a real number. -/
theorem real_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  haveI := subsingleton_scalar_idx
  have h1 := Host.reduce_andi_all _ _ hr hu ix0 e i
  exact real_of_abs_lt_inf (x i) h1

/-- An entry of a gather is an entry of the operand (at the start index, clamped into range, plus the offset), so it is
    a real number when every entry of the operand is. -/
theorem real_gather {s si t : Shape} {w : Nat} (d : GatherDims s si t) (x : s.Idx → EReal) (idx : IVec si w)
    (hx : ∀ k, ∃ r : ℝ, x k = (r : EReal)) (j : t.Idx) : ∃ r : ℝ, Host.gather d x idx j = (r : EReal) := hx _

variable [Cert.Pre_finite_inputs.Facts]

/-- The precondition split into its four conjuncts: every entry of z, of t, of pi_0 and of pi_1 is a real number. -/
theorem real_args (h : Cert.Pre_KernelIdeal m) :
    (∀ i, ∃ r : ℝ, A0 m c i = (r : EReal)) ∧ (∀ i, ∃ r : ℝ, A1 m c i = (r : EReal))
      ∧ (∀ i, ∃ r : ℝ, A2 m c i = (r : EReal)) ∧ (∀ i, ∃ r : ℝ, A3 m c i = (r : EReal)) := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hz, ht⟩ := IntOp.andi_eq_one.1 h01
  exact ⟨real_of_all _ _ _ _ hz, real_of_all _ _ _ _ ht, real_of_all _ _ _ _ h2, real_of_all _ _ _ _ h3⟩

/-- Every entry of z is a real number. -/
theorem real_z (h : Cert.Pre_KernelIdeal m) (i : S128x512.Idx) : ∃ r : ℝ, A0 m c i = (r : EReal) :=
  (real_args m c h).1 i

/-- Every entry of t is a real number. -/
theorem real_t (h : Cert.Pre_KernelIdeal m) (i : S128.Idx) : ∃ r : ℝ, A1 m c i = (r : EReal) :=
  (real_args m c h).2.1 i

/-- Every entry of the table pi_0 is a real number. -/
theorem real_pi0 (h : Cert.Pre_KernelIdeal m) (i : S50000x512.Idx) : ∃ r : ℝ, A2 m c i = (r : EReal) :=
  (real_args m c h).2.2.1 i

/-- Every entry of the table pi_1 is a real number. -/
theorem real_pi1 (h : Cert.Pre_KernelIdeal m) (i : S50000x512.Idx) : ∃ r : ℝ, A3 m c i = (r : EReal) :=
  (real_args m c h).2.2.2 i

/-- Every entry of the gathered rows of pi_0 the region reads is a real number. -/
theorem real_x0 (h : Cert.Pre_KernelIdeal m) (i : S4096x512.Idx) :
    ∃ r : ℝ, (V m c main_v6 : S4096x512.Idx → EReal) i = (r : EReal) := by
  rw [V_x0]
  unfold Cert.ReferenceIdeal.Read.val_main_v6
  exact real_gather _ _ _ (real_pi0 m c h) i

/-- Every entry of the gathered rows of pi_1 the region reads is a real number. -/
theorem real_x1 (h : Cert.Pre_KernelIdeal m) (i : S4096x512.Idx) :
    ∃ r : ℝ, (V m c main_v13 : S4096x512.Idx → EReal) i = (r : EReal) := by
  rw [V_x1]
  unfold Cert.ReferenceIdeal.Read.val_main_v13
  exact real_gather _ _ _ (real_pi1 m c h) i

end Cert.NW.KHost

end
-- ==== Proof.KFinal.lean ====
/-
  The kernel's run, read: its result array ends holding the regression `Cert.NW.G` of the arrays its region reads.

  The region reads the query rows `z`, the times `t` (and `1 - t`, `‖z‖²`, columns the host prepares from them) and
  the two sampled tables. The last step of each row block writes back the block's 64 rows of the result
  (`KInduct.out_value`), the two row blocks tile the 128 rows, and so the array is `G` everywhere.
-/
import proofs.«172330_j34153579937939_2_alg».proof.Defs
import proofs.«172330_j34153579937939_2_alg».proof.Proof.Gen.KernelIdeal.Value
import proofs.«172330_j34153579937939_2_alg».proof.Proof.Gen.Pre_finite_inputs
import proofs.«172330_j34153579937939_2_alg».proof.Proof.KInduct
import proofs.«172330_j34153579937939_2_alg».proof.Proof.KBlocks
import proofs.«172330_j34153579937939_2_alg».proof.Proof.KHost
import proofs.«172330_j34153579937939_2_alg».proof.Proof.Spec
import Idealize.ShloMosaic.Lib.Pipeline.Value

noncomputable section

namespace Cert.NW.KFinal

open Cert.KernelIdeal Cert.KernelIdeal.Gen Idealize.ShloMosaic Idealize.ShloMosaic.TcCoe Idealize.SL.Sem Idealize.ShloMosaic.ValueIdx
open Idealize.ShloMosaic.Pipeline (Dat)
open Cert.NW.KBlocks Cert.NW.KHost

variable (m : (ℓ : Loc nD τ sig) → Buf (Elt Ideal) ℓ) (ρ : Dev nD → PrngReg) (c : Dev nD)

/-- The two sampled tables as the region finds them. -/
abbrev X0 : S4096x512.Idx → EReal := V m c main_v6
abbrev X1 : S4096x512.Idx → EReal := V m c main_v13

/-- The regression of the arrays the region reads. -/
def result : Buf (Elt Ideal) ((c : Thread nD τ).loc main_v21) := NW.G (A0 m c) (A1 m c) (X0 m c) (X1 m c)

/-- What the six input windows' blocks hold, and that every entry is a real number. -/
theorem inputs (h : Cert.Pre_KernelIdeal m) : KInduct.Inputs m c (A0 m c) (A1 m c) (X0 m c) (X1 m c) where
  blk0 := fun t r k => (iblk0 m c t r k).trans (congrFun (V_main_arg0 m c) _)
  blk1 := fun t r => (iblk1 m c t r 0).trans (V_t m c (rowOf t r) 0)
  blk2 := fun t r => (iblk2 m c t r 0).trans (V_1mt m c (rowOf t r) 0)
  blk3 := fun t r => (iblk3 m c t r 0).trans (V_z2 m c (rowOf t r) 0)
  blk4 := fun t j k => iblk4 m c t j k
  blk5 := fun t j k => iblk5 m c t j k
  realZ := real_z m c h
  realT := real_t m c h
  realX0 := real_x0 m c h
  realX1 := real_x1 m c h

/-- What a flushing point writes back is its block of the regression. -/
theorem flushed_eq (h : Cert.Pre_KernelIdeal m) (t : Fin cfg0.N) (hf : (cfg0.win 6).flush t = true) :
    (dats m 0 c).flushed 6 t = ((cfg0.win 6).blk t).view.read (Elt Ideal) (result m c) :=
  (Cert.KernelIdeal.Value.flushed6 m c t).trans
    (cut6_eq_read t _ (result m c) fun r d => KInduct.out_value m c (A0 m c) (A1 m c) (X0 m c) (X1 m c) (inputs m c h) t ((flush0_6 t).mp hf) r d)

/-- The result array after the run. -/
theorem final (h : Cert.Pre_KernelIdeal m) : (dats m 0 c).arrAt 6 cfg0.N = result m c :=
  final6 m c (result m c) (flushed_eq m c h)

/-- The run: the result array at the regression, the arguments unchanged. -/
theorem run (h : Cert.Pre_KernelIdeal m) : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans (final m c h), (hr c).2⟩) (Cert.KernelIdeal.Value.run_blocks m ρ)

/-- The regression in terms of the argument arrays: the sampled tables are the reference's gathers of them. -/
theorem result_eq : result m c
    = NW.G (A0 m c) (A1 m c) (Cert.ReferenceIdeal.Read.val_main_v6 (F := Ideal) (A2 m c) (A4 m c))
        (Cert.ReferenceIdeal.Read.val_main_v13 (F := Ideal) (A3 m c) (A4 m c)) := by
  unfold result
  rw [show X0 m c = _ from V_x0 m c, show X1 m c = _ from V_x1 m c]

end Cert.NW.KFinal

end
-- ==== Proof.lean ====
/-
  The certificate's claims.

  Both programs compute Nadaraya–Watson regression with a Gaussian kernel over a sampled subset of two tables: the
  softmax-weighted average, over the samples, of `x1 - x0`, the logits being minus the squared distance from a query
  row to the interpolated sample divided by `2·bandwidth²`. The reference evaluates the softmax directly over all
  4096 samples; the kernel streams the samples in four tiles of 1024, carrying a running maximum and two running sums
  that it rescales whenever the maximum grows, and divides at the end. Over the extended reals, with finite inputs,
  the two are the same function (`Cert.NW.G`): the streamed sums are the direct sums rescaled by a common factor.

  The kernel multiplies by a reciprocal it folded in advance where the reference divides by the float nearest
  `0.32`; the certificate names that constant as the exact reciprocal of the reference's float, and
  `preserves` records it.
-/
import proofs.«172330_j34153579937939_2_alg».proof.Defs
import proofs.«172330_j34153579937939_2_alg».proof.Proof.Gen.Kernel
import proofs.«172330_j34153579937939_2_alg».proof.Proof.Gen.Kernel.Skeleton
import proofs.«172330_j34153579937939_2_alg».proof.Proof.Gen.Kernel.Launch
import proofs.«172330_j34153579937939_2_alg».proof.Proof.Gen.Kernel.Points
import proofs.«172330_j34153579937939_2_alg».proof.Proof.Gen.Kernel.Frame
import proofs.«172330_j34153579937939_2_alg».proof.Proof.Gen.KernelIdeal
import proofs.«172330_j34153579937939_2_alg».proof.Proof.Gen.KernelIdeal.Skeleton
import proofs.«172330_j34153579937939_2_alg».proof.Proof.Gen.KernelIdeal.Launch
import proofs.«172330_j34153579937939_2_alg».proof.Proof.Gen.KernelIdeal.Points
import proofs.«172330_j34153579937939_2_alg».proof.Proof.Gen.KernelIdeal.Frame
import proofs.«172330_j34153579937939_2_alg».proof.Proof.Gen.ReferenceIdeal
import proofs.«172330_j34153579937939_2_alg».proof.Proof.Gen.Pre_finite_inputs
import proofs.«172330_j34153579937939_2_alg».proof.Proof.Gen.KernelIdeal.Value
import proofs.«172330_j34153579937939_2_alg».proof.Proof.Gen.ReferenceIdeal.Run
import proofs.«172330_j34153579937939_2_alg».proof.Proof.Gen.ReferenceIdeal.Read
import proofs.«172330_j34153579937939_2_alg».proof.Proof.RefValue
import proofs.«172330_j34153579937939_2_alg».proof.Proof.KFinal
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the folded reciprocal `3.125` is read as `2²⁴ / 5368709`, the exact
    reciprocal of the float nearest `0.32` that the reference divides by. -/
theorem preserves : Cert.preserves_Kernel_KernelIdeal :=
  IdealRules.named_const.statement Cert.KernelIdeal.κ "inv_2bw2" .f32 0x40480000#32 ((16777216 / 5368709 : ℝ) : EReal) rfl

/-- Both programs end with the regression `Cert.NW.G` of the same arguments: the kernel by streaming
    (`Cert.NW.KFinal.run`), the reference directly (`Cert.NW.Ref.ref_eq`). -/
theorem algebraic : Cert.algebraic_KernelIdeal_ReferenceIdeal := by
  intro m ρ m' ρ' hpre hagree
  refine ⟨fun c => Cert.NW.KFinal.result m c, Cert.NW.KFinal.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, Cert.NW.Ref.ref_eq, (hagree c).1, (hagree c).2.1, (hagree c).2.2.1, (hagree c).2.2.2.1,
    (hagree c).2.2.2.2]
  exact (Cert.NW.KFinal.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
